-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x8192 : Shape := ⟨2, ![4096, 8192]⟩
abbrev S8192 : Shape := ⟨1, ![8192]⟩
abbrev S8192x4096 : Shape := ⟨2, ![8192, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S8192 .f32) (main_arg5 : FVec F S8192x4096 .f32) (main_arg6 : FVec F S4096 .f32) (main_arg7 : FVec F S4096 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x4096 .f32 := Host.absf main_arg5
  let main_cst_8 : FVec F S_ .f32 := constant S_ .f32 0x7F800000#32
  let main_v25 : FVec F S8192x4096 .f32 := broadcastInDim S8192x4096 ![] bcast_S_S8192x4096 main_cst_8
  let main_v26 : IVec S8192x4096 1 := cmpf .olt main_v24 main_v25
  let main_c_9 : IVec S_ 1 := constantI S_ 1 1#1
  let main_v27 : IVec S_ 1 := (fun x v => Host.reduce IntOp.andi x v reducesTo_S8192x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4x2048x4096 .f32) (main_arg1 : FVec F S4096x8192 .f32) (main_arg2 : FVec F S8192 .f32) (main_arg3 : FVec F S4096x8192 .f32) (main_arg4 : FVec F S8192 .f32) (main_arg5 : FVec F S8192x4096 .f32) (main_arg6 : FVec F S4096 .f32) (main_arg7 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_v13 main_v16
-- ==== Kernel.lean ====
abbrev S4x2048x4096 : Shape := ⟨3, ![4, 2048, 4096]⟩
abbrev S4096x8192 : Shape := ⟨2, ![4096, 8192]⟩
abbrev S8192 : Shape := ⟨1, ![8192]⟩
abbrev S8192x4096 : Shape := ⟨2, ![8192, 4096]⟩
abbrev S4096 : Shape := ⟨1, ![4096]⟩
abbrev S1x8192 : Shape := ⟨2, ![1, 8192]⟩
abbrev S1x4096 : Shape := ⟨2, ![1, 4096]⟩
abbrev S8192x8192 : Shape := ⟨2, ![8192, 8192]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S1024x1024 : Shape := ⟨2, ![1024, 1024]⟩
abbrev S1x1024 : Shape := ⟨2, ![1, 1024]⟩
abbrev S1024x8x128 : Shape := ⟨3, ![1024, 8, 128]⟩
abbrev S1024x8 : Shape := ⟨2, ![1024, 8]⟩
abbrev S1024x8x1 : Shape := ⟨3, ![1024, 8, 1]⟩

abbrev nBuf : Space → Nat
  | .hbm => 20
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S8192, .f32⟩
  | .hbm, ⟨3, _⟩ => ⟨S4096x8192, .f32⟩
  | .hbm, ⟨4, _⟩ => ⟨S8192, .f32⟩
  | .hbm, ⟨5, _⟩ => ⟨S8192x4096, .f32⟩
  | .hbm, ⟨6, _⟩ => ⟨S4096, .f32⟩
  | .hbm, ⟨7, _⟩ => ⟨S4096, .f32⟩
  | .hbm, ⟨8, _⟩ => ⟨S8192x4096, .f32⟩
  | .hbm, ⟨9, _⟩ => ⟨S8192x4096, .bf16⟩
  | .hbm, ⟨10, _⟩ => ⟨S4096x8192, .bf16⟩
  | .hbm, ⟨11, _⟩ => ⟨S4096x8192, .bf16⟩
  | .hbm, ⟨12, _⟩ => ⟨S8192x4096, .bf16⟩
  | .hbm, ⟨13, _⟩ => ⟨S1x8192, .f32⟩
  | .hbm, ⟨14, _⟩ => ⟨S1x8192, .f32⟩
  | .hbm, ⟨15, _⟩ => ⟨S1x4096, .f32⟩
  | .hbm, ⟨16, _⟩ => ⟨S1x4096, .f32⟩
  | .hbm, ⟨17, _⟩ => ⟨S8192x8192, .bf16⟩
  | .hbm, ⟨18, _⟩ => ⟨S8192x4096, .f32⟩
  | .hbm, ⟨19, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S4096x512, .bf16⟩
  | .local _ .vmem, ⟨7, _⟩ => ⟨S4096x512, .bf16⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x4096_S8192x4096 : S4x2048x4096.ShapeCasts S8192x4096
  bitsLt_bf16_f32 : FTy.bits .bf16 < FTy.bits .f32
  shapeCasts_S8192_S1x8192 : S8192.ShapeCasts S1x8192
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x8x128 : S1024x1024.ShapeCasts S1024x8x128
  reduces_S1024x8x128_S1024x8 : S1024x8x128.Reduces [2] S1024x8
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  shapeCasts_S8192x4096_S4x2048x4096 : S8192x4096.ShapeCasts S4x2048x4096
  dot_S1024x4096_S4096x512_S1024x512_1_0_0_1_n_n_wf : DotDims.WF S1024x4096 S4096x512 S1024x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x8192.size a
  hwx0_1 : ∀ i : grid0.Coords, EltTy.bits .bf16 = 32 ∨ (Rect.block (s := S4096x8192) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x8192.size a
  hwx0_3 : ∀ i : grid0.Coords, EltTy.bits .bf16 = 32 ∨ (Rect.block (s := S4096x8192) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x8192.size a
  hwx0_5 : ∀ i : grid0.Coords, EltTy.bits .bf16 = 32 ∨ (Rect.block (s := S8192x8192) S1024x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x4096.size a
  hwx1_1 : ∀ i : grid1.Coords, EltTy.bits .bf16 = 32 ∨ (Rect.block (s := S8192x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x8192 : Shape := ⟨2, ![4096, 8192]⟩
abbrev S8192 : Shape := ⟨1, ![8192]⟩
abbrev S8192x4096 : Shape := ⟨2, ![8192, 4096]⟩
abbrev S4096 : Shape := ⟨1, ![4096]⟩
abbrev S4x2048x8192 : Shape := ⟨3, ![4, 2048, 8192]⟩
abbrev S1x1x8192 : Shape := ⟨3, ![1, 1, 8192]⟩
abbrev S_ : Shape := ⟨0, ![]⟩
abbrev S1x1x4096 : Shape := ⟨3, ![1, 1, 4096]⟩
abbrev S4x2048x32x128 : Shape := ⟨4, ![4, 2048, 32, 128]⟩
abbrev S4x2048x32 : Shape := ⟨3, ![4, 2048, 32]⟩
abbrev S4x2048x32x1 : Shape := ⟨4, ![4, 2048, 32, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S8192, .f32⟩
  | .hbm, ⟨3, _⟩ => ⟨S4096x8192, .f32⟩
  | .hbm, ⟨4, _⟩ => ⟨S8192, .f32⟩
  | .hbm, ⟨5, _⟩ => ⟨S8192x4096, .f32⟩
  | .hbm, ⟨6, _⟩ => ⟨S4096, .f32⟩
  | .hbm, ⟨7, _⟩ => ⟨S4096, .f32⟩
  | .hbm, ⟨8, _⟩ => ⟨S4x2048x8192, .f32⟩
  | .hbm, ⟨9, _⟩ => ⟨S1x1x8192, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S1x1x8192, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S4x2048x8192, .f32⟩
  | .hbm, ⟨18, _⟩ => ⟨S_, .f32⟩
  | .hbm, ⟨19, _⟩ => ⟨S4x2048x8192, .f32⟩
  | .hbm, ⟨20, _⟩ => ⟨S4x2048x8192, .f32⟩
  | .hbm, ⟨21, _⟩ => ⟨S_, .f32⟩
  | .hbm, ⟨22, _⟩ => ⟨S4x2048x8192, .f32⟩
  | .hbm, ⟨23, _⟩ => ⟨S4x2048x8192, .f32⟩
  | .hbm, ⟨24, _⟩ => ⟨S4x2048x8192, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | .hbm, ⟨29, _⟩ => ⟨S4x2048x32x128, .f32⟩
  | .hbm, ⟨30, _⟩ => ⟨S4x2048x32x128, .f32⟩
  | .hbm, ⟨31, _⟩ => ⟨S_, .f32⟩
  | .hbm, ⟨32, _⟩ => ⟨S4x2048x32, .f32⟩
  | .hbm, ⟨33, _⟩ => ⟨S4x2048x32x1, .f32⟩
  | .hbm, ⟨34, _⟩ => ⟨S_, .f32⟩
  | .hbm, ⟨35, _⟩ => ⟨S4x2048x32x1, .f32⟩
  | .hbm, ⟨36, _⟩ => ⟨S4x2048x32x1, .f32⟩
  | .hbm, ⟨37, _⟩ => ⟨S_, .f32⟩
  | .hbm, ⟨38, _⟩ => ⟨S4x2048x32x1, .f32⟩
  | .hbm, ⟨39, _⟩ => ⟨S4x2048x32x1, .f32⟩
  | .hbm, ⟨40, _⟩ => ⟨S4x2048x32x1, .f32⟩
  | .hbm, ⟨41, _⟩ => ⟨S4x2048x32x128, .f32⟩
  | .hbm, ⟨42, _⟩ => ⟨S4x2048x32x128, .f32⟩
  | .hbm, ⟨43, _⟩ => ⟨S4x2048x4096, .f32⟩
  | .hbm, ⟨44, _⟩ => ⟨S1x1x4096, .f32⟩
  | .hbm, ⟨45, _⟩ => ⟨S4x2048x4096, .f32⟩
  | .hbm, ⟨46, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S4x2048x32x128 : S4x2048x4096.ShapeCasts S4x2048x32x128
  reducesTo_S4x2048x32x128_S4x2048x32_d3 : S4x2048x32x128.ReducesTo [3] S4x2048x32
  h_S_ : 0 < S_.numel
  bcast_S4x2048x32_S4x2048x32x1_0_1_2 : S4x2048x32.BroadcastsInDim S4x2048x32x1 (![0, 1, 2] : Fin 3 → Fin S4x2048x32x1.rank)
  bcast_S_S4x2048x32x1 : S_.BroadcastsInDim S4x2048x32x1 (![] : Fin 0 → Fin S4x2048x32x1.rank)
  bcast_S4x2048x32x1_S4x2048x32x128_0_1_2_3 : S4x2048x32x1.BroadcastsInDim S4x2048x32x128 (![0, 1, 2, 3] : Fin 4 → Fin S4x2048x32x128.rank)
  shapeCasts_S4x2048x32x128_S4x2048x4096 : S4x2048x32x128.ShapeCasts S4x2048x4096
  dot_S4x2048x4096_S4096x8192_S4x2048x8192_2_0_01_1_n_n_wf : DotDims.WF S4x2048x4096 S4096x8192 S4x2048x8192 [2] [0] [0, 1] [1] [] []
  dot_S4x2048x8192_S8192x4096_S4x2048x4096_2_0_01_1_n_n_wf : DotDims.WF S4x2048x8192 S8192x4096 S4x2048x4096 [2] [0] [0, 1] [1] [] []

variable [Facts₀]

def dot_S4x2048x4096_S4096x8192_S4x2048x8192_2_0_01_1_n_n : DotDims S4x2048x4096 S4096x8192 S4x2048x8192 where
  lhsContracting := [2]
  rhsContracting := [0]
  lhsNonContracting := [0, 1]
  rhsNonContracting := [1]
  lhsBatch := []
  rhsBatch := []
  wf := dot_S4x2048x4096_S4096x8192_S4x2048x8192_2_0_01_1_n_n_wf
def dot_S4x2048x8192_S8192x4096_S4x2048x4096_2_0_01_1_n_n : DotDims S4x2048x8192 S8192x4096 S4x2048x4096 where
  lhsContracting := [2]
  rhsContracting := [0]
  lhsNonContracting := [0, 1]
  rhsNonContracting := [1]
  lhsBatch := []
  rhsBatch := []
  wf := dot_S4x2048x8192_S8192x4096_S4x2048x4096_2_0_01_1_n_n_wf

class Facts : Prop extends Facts₀ where

variable [Facts]
-- ==== Proof.K.Stage1.lean ====
/-
  The first kernel region: at each of its 16 × 8 grid points the body reads a block of 1024 rows of z
  (all 4096 features), the 512 columns of W1 and of W2 that the point's column tile names with the
  matching 512 entries of b1 and b2, and stores the 1024 × 512 block of gated values — content times
  the logistic of the gate — into the output's staging buffer, whole.
  Stated for any contents V of the buffers when the region is entered, at any float instance.
-/
import proofs.«158177_j59167469470253_2_alg».proof.Proof.Gen.Kernel.Launch
import proofs.«158177_j59167469470253_2_alg».proof.Proof.Gen.Kernel.Skeleton
import proofs.«158177_j59167469470253_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window w's block at grid point t, read off the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body stores -/

abbrev rectZ : Rect S1024x4096 := Rect.unit (s := S1024x4096) ![0, 0] S1024x4096.size inb_S1024x4096_S1024x4096_0_0
abbrev rectW : Rect S4096x512 := Rect.unit (s := S4096x512) ![0, 0] S4096x512.size inb_S4096x512_S4096x512_0_0
abbrev rectB : Rect S1x512 := Rect.unit (s := S1x512) ![0, 0] S1x512.size inb_S1x512_S1x512_0_0
abbrev rectG : Rect S1024x512 := Rect.unit (s := S1024x512) ![0, 0] S1024x512.size inb_S1024x512_S1024x512_0_0

/-- The output's staging buffer after the body: its one whole-block store, of the gated values of the five blocks read. -/
def gatedBlock (x0 : Vec F S1024x4096 .bf16) (x1 : Vec F S4096x512 .bf16) (x2 : Vec F S1x512 .f32)
    (x3 : Vec F S4096x512 .bf16) (x4 : Vec F S1x512 .f32) : Vec F S1024x512 .bf16 :=
  View.canon [⟨rectG, k0_pay1 (View.ld x0 rectZ) (View.ld x1 rectW) (View.ld x2 rectB) (View.ld x3 rectW) (View.ld x4 rectB)⟩]

/-- The one store covers the block. -/
theorem gated_cover (p0 : Vec F S1024x512 .bf16) (y : S1024x512.Idx) :
    ∃ pc ∈ ([⟨rectG, p0⟩] : List (View.Piece (Elt F) S1024x512 .bf16)), y ∈ pc.1.set :=
  View.cover_of_tiled [⟨rectG, p0⟩] S1024x512.size (by rfl) y

/-! ## The body's triple -/

set_option maxHeartbeats 1000000 in
/-- On whole staging memrefs, the five inputs' at contents x0 … x4 and the output's at anything, the body runs to its
    end, leaves the inputs as they were and the output's buffer at the gated block. -/
theorem body_runs (c : Dev nD) (E : Set ℕ) (i : grid0.Coords)
    (arg2 : Memref sig .tc .vmem S1024x4096 .bf16) (harg2 : arg2.IsWhole)
    (arg3 : Memref sig .tc .vmem S4096x512 .bf16) (harg3 : arg3.IsWhole)
    (arg4 : Memref sig .tc .vmem S1x512 .f32) (harg4 : arg4.IsWhole)
    (arg5 : Memref sig .tc .vmem S4096x512 .bf16) (harg5 : arg5.IsWhole)
    (arg6 : Memref sig .tc .vmem S1x512 .f32) (harg6 : arg6.IsWhole)
    (arg7 : Memref sig .tc .vmem S1024x512 .bf16) (harg7 : arg7.IsWhole)
    (x0 : Vec F S1024x4096 .bf16) (x1 : Vec F S4096x512 .bf16) (x2 : Vec F S1x512 .f32)
    (x3 : Vec F S4096x512 .bf16) (x4 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (gatedBlock x0 x1 x2 x3 x4)) -∗ K ⟨⟩))
      ⊢ wp frame (wpE (defs₀ (F := F)) Variants.none c none) E
          (cc0_gate_content_kernel i arg2 harg2 arg3 harg3 arg4 harg4 arg5 harg5 arg6 harg6 arg7 harg7) K := by
  simp only [cc0_gate_content_kernel_eq_skeleton]; unfold cc0_gate_content_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (gated_cover _)

/-! ## The proof data -/

/-- The proof data of the first pipeline on core c: the arrays as the region finds them; after the body at point t each
    input's buffer at its block and the output's at the gated block of the five input blocks; the region invariant the
    scoped buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => gatedBlock (blockAt V c 0 t) (blockAt V c 1 t) (blockAt V c 2 t) (blockAt V c 3 t) (blockAt V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) : (dat V c).after 4 t = blockAt V c 4 t := by dsimp only [dat]
theorem after_5 (c : Dev nD) (t : Fin cfg0.N) : (dat V c).after 5 t =
    gatedBlock (blockAt V c 0 t) (blockAt V c 1 t) (blockAt V c 2 t) (blockAt V c 3 t) (blockAt V c 4 t) := by dsimp only [dat]

/-- An input window's current staging buffer holds the window's block at every point, fetched there or not: where it is
    not fetched the block index has not moved since the point before. -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)
theorem before_3 (c : Dev nD) (t : Fin cfg0.N) (d) : (dat V c).before 3 t d = blockAt V c 3 t :=
  ((dat V c).before_in_eq_fetched 3 rfl (fun _ => rfl) (fun _ _ _ => rfl)
    (fun t => by rw [after_3]; unfold Dat.blockOf blockAt; rw [dat_A]; try rfl) t d).trans
    (by unfold Dat.fetched Dat.blockOf blockAt; rw [dat_A]; try rfl)
theorem before_4 (c : Dev nD) (t : Fin cfg0.N) (d) : (dat V c).before 4 t d = blockAt V c 4 t :=
  ((dat V c).before_in_eq_fetched 4 rfl (fun _ => rfl) (fun _ _ _ => rfl)
    (fun t => by rw [after_4]; unfold Dat.blockOf blockAt; rw [dat_A]; try rfl) t d).trans
    (by unfold Dat.fetched Dat.blockOf blockAt; rw [dat_A]; try rfl)

/-! ## The body obligation -/

/-- What the body is handed at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 1000000 in
/-- The body at any point: the inputs' buffers hold their blocks, so the body's triple applies; the invariant and the
    core's dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation (c : Dev nD) : BodyObligation (dat (F := F) V c) (defs₀ (F := F)) Variants.none () Set.univ := fun t => by
  rw [bigSep_W0, bigSep_W0]
  exact body_at V c t

end Cert.Kernel.Stage1

end
-- ==== Proof.K.Stage2.lean ====
/-
  The second kernel region, the body. Its grid is 8 × 4 × 8; the last coordinate k runs over the eight
  1024-wide slices of the 8192 gated features. The body keeps a 1024 × 1024 accumulator in a scratch
  buffer that lives across grid points: at k = 0 it is filled with zeros; at every k the product of the
  point's block of gated rows with the point's block of W3 is added to it; at k = 7 the sum plus b3 is
  normalised group by group, scaled by gamma and stored to the output's staging buffer.
  Every load and store is through the whole rectangle of its buffer, so each case of the body leaves the
  accumulator, and at k = 7 the output, at a plain value of what it was handed.
-/
import proofs.«158177_j59167469470253_2_alg».proof.Proof.Gen.Kernel.Launch
import proofs.«158177_j59167469470253_2_alg».proof.Proof.Gen.Kernel.Skeleton
import proofs.«158177_j59167469470253_2_alg».proof.Proof.Gen.Kernel.Points
import Idealize.ShloMosaic.Lib.Pipeline.Value
import Idealize.ShloMosaic.Lib.Pipeline.FrameBody
import Idealize.ShloMosaic.Lib.Pipeline.Frame
import Idealize.ShloMosaic.Lib.Tactic

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whole-buffer accesses sit at offset zero on both axes. -/
theorem offsets_zero : (![0, 0] : Fin 2 → Nat) = fun _ => 0 := funext fun a => by fin_cases a <;> rfl

/-! ## The body's two branch conditions, from the grid coordinates -/

/-- k = 0: the accumulator is zeroed first. -/
abbrev isFirst (i : grid1.Coords) : Prop :=
  (Scalar.cmpi .ne (Scalar.extui (Scalar.cmpi .eq (BitVec.ofNat 32 (i 2).val) 0#32)) 0#32) = 1#1
/-- k = 7: the result is finished and stored. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-! ## What each case leaves -/

/-- The accumulator after a point: what it held plus the product of the point's two blocks. -/
abbrev accumulated (a : Vec F S1024x1024 .f32) (x0 x1 : Vec F S1024x1024 .bf16) : Vec F S1024x1024 .f32 := k1_pay2 a x0 x1
/-- The zero fill. -/
abbrev zeroFill : Vec F S1024x1024 .f32 := k1_pay1 (F := F)
/-- The finished block: the accumulated sum plus the bias row, normalised by groups, times the scale row. -/
abbrev finished (a : Vec F S1024x1024 .f32) (x2 x3 : Vec F S1x1024 .f32) : Vec F S1024x1024 .f32 := k1_pay3 a x2 x3

set_option maxHeartbeats 2000000 in
/-- A middle point (0 < k < 7): the accumulator, handed at a, is left at a plus the product; every other buffer as found. -/
theorem body_middle (c : Dev nD) (E : Set ℕ) (i : grid1.Coords) (hc1 : ¬ isFirst i) (hc2 : ¬ isLast i)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (x0 x1 : Vec F S1024x1024 .bf16) (x2 x3 : Vec F S1x1024 .f32) (xo a : Vec F S1024x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ owns (c : Thread nD τ) arg8 fullShare a
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (xo)
            ∗ owns (c : Thread nD τ) arg8 fullShare (accumulated a x0 x1)) -∗ K ⟨⟩))
      ⊢ wp frame (wpE (defs₀ (F := F)) Variants.none c none) E
          (cc1_mlp_out_kernel i arg3 harg3 arg4 harg4 arg5 harg5 arg6 harg6 arg7 harg7 arg8 harg8) K := by
  simp only [cc1_mlp_out_kernel_eq_skeleton]; unfold cc1_mlp_out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact H5
  ipureintro
  sl_unfold_run_names
  subst hf0; subst hf1; subst hf5
  rw [View.read_writes_eq_canon _ _ _ (fun y => ⟨_, List.mem_cons_self, View.mem_set_unit_zero offsets_zero inb_S1024x1024_S1024x1024_0_0 y⟩), View.canon_cons_unit_zero offsets_zero]
  simp only [View.readAt_eq_ld, View.ld_unit_zero (S := S1024x1024) offsets_zero]

set_option maxHeartbeats 2000000 in
/-- The first point of a sweep (k = 0): whatever the accumulator held, it is left at the zero fill plus the product; every other buffer as found. -/
theorem body_first (c : Dev nD) (E : Set ℕ) (i : grid1.Coords) (hc1 : isFirst i) (hc2 : ¬ isLast i)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (x0 x1 : Vec F S1024x1024 .bf16) (x2 x3 : Vec F S1x1024 .f32) (xo a : Vec F S1024x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (xo)
            ∗ owns (c : Thread nD τ) arg8 fullShare (accumulated zeroFill x0 x1)) -∗ K ⟨⟩))
      ⊢ wp frame (wpE (defs₀ (F := F)) Variants.none c none) E
          (cc1_mlp_out_kernel i arg3 harg3 arg4 harg4 arg5 harg5 arg6 harg6 arg7 harg7 arg8 harg8) K := by
  simp only [cc1_mlp_out_kernel_eq_skeleton]; unfold cc1_mlp_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact H5
  ipureintro
  sl_unfold_run_names
  subst hf0; subst hf1
  rw [View.read_writes_eq_canon _ _ _ (fun y => ⟨_, List.mem_cons_self, View.mem_set_unit_zero offsets_zero inb_S1024x1024_S1024x1024_0_0 y⟩), View.canon_cons_unit_zero offsets_zero]
  simp only [View.readAt_eq_ld, View.ld_unit_zero (S := S1024x1024) offsets_zero, View.readCov_unit_zero (S := S1024x1024) _ offsets_zero]

set_option maxHeartbeats 2000000 in
/-- The last point of a sweep (k = 7): the accumulator is left at a plus the product, and the output's buffer, whatever it held, at the finished block of that sum and the two rows. -/
theorem body_last (c : Dev nD) (E : Set ℕ) (i : grid1.Coords) (hc1 : ¬ isFirst i) (hc2 : isLast i)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (x0 x1 : Vec F S1024x1024 .bf16) (x2 x3 : Vec F S1x1024 .f32) (xo a : Vec F S1024x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare a
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (finished (accumulated a x0 x1) x2 x3)
            ∗ owns (c : Thread nD τ) arg8 fullShare (accumulated a x0 x1)) -∗ K ⟨⟩))
      ⊢ wp frame (wpE (defs₀ (F := F)) Variants.none c none) E
          (cc1_mlp_out_kernel i arg3 harg3 arg4 harg4 arg5 harg5 arg6 harg6 arg7 harg7 arg8 harg8) K := by
  simp only [cc1_mlp_out_kernel_eq_skeleton]; unfold cc1_mlp_out_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    sl_unfold_run_names
    subst hf0; subst hf1; subst hf2; subst hf3; subst hf5
    rw [View.read_writes_eq_canon _ _ _ (fun y => ⟨_, List.mem_cons_self, View.mem_set_unit_zero offsets_zero inb_S1024x1024_S1024x1024_0_0 y⟩), View.canon_cons_unit_zero offsets_zero]
    simp only [View.readAt_eq_ld, View.ld_unit_zero (S := S1024x1024) offsets_zero, View.ld_unit_zero (S := S1x1024) offsets_zero, View.readCov_unit_zero (S := S1024x1024) _ offsets_zero]
  iexists _; isplitr
  swap; · iexact H5
  ipureintro
  sl_unfold_run_names
  subst hf0; subst hf1; subst hf5
  rw [View.read_writes_eq_canon _ _ _ (fun y => ⟨_, List.mem_cons_self, View.mem_set_unit_zero offsets_zero inb_S1024x1024_S1024x1024_0_0 y⟩), View.canon_cons_unit_zero offsets_zero]
  simp only [View.readAt_eq_ld, View.ld_unit_zero (S := S1024x1024) offsets_zero]

end Cert.Kernel.Stage2

end
-- ==== Proof.K.Stage2Data.lean ====
/-
  The second kernel region, the proof data: what the accumulator holds point by point, the region's invariant
  carrying it, what each window's buffer holds after the body, and the body obligation at every point.
  Stated for any contents V of the buffers when the region is entered, at any float instance.
-/
import proofs.«158177_j59167469470253_2_alg».proof.Proof.Gen.Kernel.Launch
import proofs.«158177_j59167469470253_2_alg».proof.Proof.Gen.Kernel.Skeleton
import proofs.«158177_j59167469470253_2_alg».proof.Proof.Gen.Kernel.Points
import proofs.«158177_j59167469470253_2_alg».proof.Proof.K.Stage2
import Idealize.ShloMosaic.Lib.Pipeline.Value
import Idealize.ShloMosaic.Lib.Pipeline.FrameBody
import Idealize.ShloMosaic.Lib.Pipeline.Frame
import Idealize.ShloMosaic.Lib.Tactic

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks a grid point reads -/

variable (V : (c : Dev nD) → (b : Ref sig .tc) → Buf (Elt F) ((c : Thread nD τ).loc b))

/-- Window w's block at grid point t, read off the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator, point by point -/

/-- What the accumulator holds after the body at position n of the grid's row-major order: at the first point of a
    sweep over k (n a multiple of 8) the zero fill plus that point's product, otherwise what the point before left
    plus this point's product. -/
def accAt (c : Dev nD) : (n : ℕ) → n < cfg1.N → Vec F S1024x1024 .f32
  | 0, h => accumulated zeroFill (blockAt V c 0 ⟨0, h⟩) (blockAt V c 1 ⟨0, h⟩)
  | n + 1, h =>
    if (n + 1) % 8 = 0 then accumulated zeroFill (blockAt V c 0 ⟨n + 1, h⟩) (blockAt V c 1 ⟨n + 1, h⟩)
    else accumulated (accAt c n (Nat.lt_of_succ_lt h)) (blockAt V c 0 ⟨n + 1, h⟩) (blockAt V c 1 ⟨n + 1, h⟩)

theorem accAt_first (c : Dev nD) (t : Fin cfg1.N) (h : t.val % 8 = 0) :
    accAt V c t.val t.isLt = accumulated zeroFill (blockAt V c 0 t) (blockAt V c 1 t) := by
  obtain ⟨n, hn⟩ := t
  cases n with
  | zero => rfl
  | succ n => exact if_pos h

theorem accAt_next (c : Dev nD) (t : Fin cfg1.N) (h : ¬ t.val % 8 = 0) :
    accAt V c t.val t.isLt = accumulated (accAt V c (t.val - 1) (Nat.lt_of_le_of_lt (Nat.sub_le _ _) t.isLt)) (blockAt V c 0 t) (blockAt V c 1 t) := by
  obtain ⟨n, hn⟩ := t
  cases n with
  | zero => exact absurd (Nat.zero_mod _) h
  | succ n => exact if_neg h

/-! ## The region invariant: the scratch at the accumulator's value -/

/-- The accumulator's buffer, as the body is passed it. -/
abbrev scratchM : Memref sig .tc .vmem S1024x1024 .f32 := Memref.whole cc1_scratch0

/-- The scoped buffers no window of this region stages — the other region's twelve staging buffers at anything, and
    the scratch as S states it — and the generator register at some state. -/
def carried (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ ∃ r, prngReg c r)

/-- Before the first point the scratch is at anything: the class's invariant. -/
theorem PhiA_eq (c : Dev nD) :
    (Pipeline.ΦA spec1 c : sProp 𝕄) = carried c (iprop(∃ d, owns (c : Thread nD τ) scratchM fullShare d)) := by
  unfold Pipeline.ΦA carried; rw [scopedRest1_eq]; simp only [scratchM, owns_whole]; try rfl

/-- The invariant before position n: before the first point the class's; afterwards the scratch at what the point
    before left in it. -/
def Phi (c : Dev nD) : (n : ℕ) → n ≤ cfg1.N → sProp 𝕄
  | 0, _ => Pipeline.ΦA spec1 c
  | n + 1, hn => carried c (owns (c : Thread nD τ) scratchM fullShare (accAt V c n hn))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = carried c (owns (c : Thread nD τ) scratchM fullShare (accAt V c n hn)) := rfl
theorem Phi_pos (c : Dev nD) (n : ℕ) (h : n ≤ cfg1.N) (hz : n ≠ 0) :
    Phi V c n h = carried c (owns (c : Thread nD τ) scratchM fullShare (accAt V c (n - 1) (by omega))) := by
  cases n with
  | zero => exact absurd rfl hz
  | succ n => rfl

/-! ## The proof data -/

/-- The proof data of the second pipeline on core c: the arrays as the region finds them; after the body at point t each
    input's buffer at its block and the output's at the finished block of the accumulator there (read only where k = 7:
    elsewhere the output window is idle); the invariant above; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => finished (accAt V c t.val t.isLt) (blockAt V c 2 t) (blockAt V c 3 t)
  Φ t := Phi V c t.val (Nat.le_of_lt_succ t.isLt)
  q _ := fullShare
  owed _ := 0

theorem dat_A (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t =
    finished (accAt V c t.val t.isLt) (blockAt V c 2 t) (blockAt V c 3 t) := by dsimp only [dat]

/-- An input window's current staging buffer holds the window's block at every point, fetched there or not. -/
theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)
theorem before_3 (c : Dev nD) (t : Fin cfg1.N) (d) : (dat V c).before 3 t d = blockAt V c 3 t :=
  ((dat V c).before_in_eq_fetched 3 rfl (fun _ => rfl) (fun _ _ _ => rfl)
    (fun t => by rw [after_3]; unfold Dat.blockOf blockAt; rw [dat_A]; try rfl) t d).trans
    (by unfold Dat.fetched Dat.blockOf blockAt; rw [dat_A]; try rfl)

/-! ## Where the output window is idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- Away from k = 7 the body stores nothing into the output window and the pipeline does not write it back; -/
theorem out_idle : ∀ t : Fin cfg1.N, ¬ isLast (grid1.coords t) → cfg1.idle 4 (grid1.coords t) = true := by decide +kernel
theorem out_noflush : ∀ t : Fin cfg1.N, ¬ isLast (grid1.coords t) → (cfg1.win 4).flush t = false := by decide +kernel
/-- at k = 7 it is live. -/
theorem out_live : ∀ t : Fin cfg1.N, isLast (grid1.coords t) → cfg1.idle 4 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4000000 in
/-- The body at any point: the inputs' buffers hold their blocks; whether k is 0, 7 or between says which case of the
    body runs; the invariant hands the body the scratch at what the point before left (at anything before the first point
    of all) and takes it back at this point's value. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  by_cases hF : t.val % 8 = 0
  · have hL : ¬ t.val % 8 = 7 := by omega
    have hcL : ¬ isLast (grid1.coords t) := fun h => hL ((isLast_iff t).mp h)
    rw [Dat.leavesExact_idle (dat V c) 4 t (out_idle t hcL) (out_noflush t hcL), accAt_first V c t hF]
    by_cases hz : t.val = 0
    · rw [Phi_castSucc V c t, Phi_zero V c _ _ hz, PhiA_eq]; unfold carried
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_first c Set.univ (grid1.coords t) ((isFirst_iff t).mpr hF) hcL _ _ _ _ _ _ _ _ _ _ _ _
        (blockAt V c 0 t) (blockAt V c 1 t) (blockAt V c 2 t) (blockAt V c 3 t) ((dat V c).before 4 t d4) zeroFill _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexists _; iexact H4
    · rw [Phi_castSucc V c t, Phi_pos V c _ _ hz]; unfold carried
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_first c Set.univ (grid1.coords t) ((isFirst_iff t).mpr hF) hcL _ _ _ _ _ _ _ _ _ _ _ _
        (blockAt V c 0 t) (blockAt V c 1 t) (blockAt V c 2 t) (blockAt V c 3 t) ((dat V c).before 4 t d4) zeroFill _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hF (by rw [h])
    have hcF : ¬ isFirst (grid1.coords t) := fun h => hF ((isFirst_iff t).mp h)
    rw [accAt_next V c t hF, Phi_castSucc V c t, Phi_pos V c _ _ hz]; unfold carried
    by_cases hL : t.val % 8 = 7
    · have hcL : isLast (grid1.coords t) := (isLast_iff t).mpr hL
      rw [show (dat V c).leavesExact 4 t = owns (c : Thread nD τ) (st1_4 t) fullShare ((dat V c).after 4 t) from by
        unfold Dat.leavesExact; rw [out_live t hcL], after_4, accAt_next V c t hF]
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_last c Set.univ (grid1.coords t) hcF hcL _ _ _ _ _ _ _ _ _ _ _ _
        (blockAt V c 0 t) (blockAt V c 1 t) (blockAt V c 2 t) (blockAt V c 3 t) zeroFill
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexact H4
    · have hcL : ¬ isLast (grid1.coords t) := fun h => hL ((isLast_iff t).mp h)
      rw [Dat.leavesExact_idle (dat V c) 4 t (out_idle t hcL) (out_noflush t hcL)]
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_middle c Set.univ (grid1.coords t) hcF hcL _ _ _ _ _ _ _ _ _ _ _ _
        (blockAt V c 0 t) (blockAt V c 1 t) (blockAt V c 2 t) (blockAt V c 3 t) ((dat V c).before 4 t d4)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation (c : Dev nD) : BodyObligation (dat (F := F) V c) (defs₀ (F := F)) Variants.none () Set.univ := fun t => by
  rw [bigSep_W1, bigSep_W1]
  exact body_at V c t

/-! ## The invariant at the region's two ends -/

/-- What the region is entered with is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the class's back: the scratch's value is forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 256 := N_1; omega), PhiA_eq]
  unfold carried
  iintro ⟨⟨A0, A1, A2, A3, A4, A5, A6, A7, A8, A9, A10, A11, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexists _; iexact HS
  · iexact Hg

end Cert.Kernel.Stage2

end
-- ==== Proof.K.Run.lean ====
/-
  The whole program as a run: nine host operations (a reshape of z to rows, format changes of z and the three weight
  matrices, the four bias and scale vectors as rows), the first kernel region, the second kernel region, and a
  last reshape. The buffers' contents at each boundary are a fold from the launch memory: a host stretch applies its
  operations, a kernel region leaves each of its windows' arrays at what its write-backs make of it and every other
  buffer as it was. Every weakly fair execution terminates, nothing faulting, and the final memory holds every
  unscoped buffer at the last boundary's contents — the result among them, and each argument as launched.
-/
import proofs.«158177_j59167469470253_2_alg».proof.Proof.K.Stage1
import proofs.«158177_j59167469470253_2_alg».proof.Proof.K.Stage2Data
import proofs.«158177_j59167469470253_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the nine host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as entered. -/
def W2 (c : Dev nD) : Valuation τ sig (Elt F) :=
  Pipeline.withArrays spec0 c (W1 m ρ c) fun w => (Stage1.dat (V1 m ρ) c).arrAt w cfg0.N
theorem W2_arr (c : Dev nD) (w : Fin cfg0.W) :
    W2 m ρ c (Proc.devRef .tc (Pipeline.arrRef spec0 w)) = (Stage1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (Stage1.dat (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region, entered where the first left off. -/
def W3 (c : Dev nD) : Valuation τ sig (Elt F) :=
  Pipeline.withArrays spec1 c (W2 m ρ c) fun w => (Stage2.dat (V2 m ρ) c).arrAt w cfg1.N
theorem W3_arr (c : Dev nD) (w : Fin cfg1.W) :
    W3 m ρ c (Proc.devRef .tc (Pipeline.arrRef spec1 w)) = (Stage2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem exit1_arr (c : Dev nD) (w : Fin cfg1.W) : (Stage2.dat (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last reshape: the end. -/
abbrev W4 : Dev nD → Valuation τ sig (Elt F) := fun c => StableHlo.after hostOps2 (W3 m ρ c)

/-- A buffer that no host operation writes and no region's window stages ends as launched. -/
theorem W4_untouched (c : Dev nD) (r : Ref sig .tc) (h0 : r ∉ (hostOps0_W : List (Ref sig .tc))) (h2 : r ∉ (hostOps2_W : List (Ref sig .tc)))
    (hs0 : ∀ w, Pipeline.arrRef spec0 w ≠ r) (hs1 : ∀ w, Pipeline.arrRef spec1 w ≠ r) :
    W4 m ρ c (Proc.devRef .tc r) = m ((c : Thread nD τ).loc r) :=
  (StableHlo.after_of_writes_sub hostOps2 _ hostOps2_writes h2).trans <|
    (W3_of_ne m ρ c r hs1).trans <| (W2_of_ne m ρ c r hs0).trans <|
      (StableHlo.after_of_writes_sub hostOps0 _ hostOps0_writes h0).trans rfl

/-! ## The proof data family and what rides beside the buffers -/

abbrev noTables : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) noTables p) c
  | ⟨0, _⟩ => fun c => Stage1.dat (V1 m ρ) c
  | ⟨1, _⟩ => fun c => Stage2.dat (V2 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at W1, left at W2. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3; its invariant starts as the class's and gives
    the class's back at the end. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stage2.Phi_in (V2 m ρ) c)
    unfold Pipeline.ΦA
    iintro ⟨Hp, -, Hr⟩
    isplitl [Hr]; · iexact Hr
    iexact Hp
  hout c := by
    rw [Pipeline.ownSems0_none]
    refine BIBase.Entails.trans (Stage2.Phi_out (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) noTables (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tend m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched — no host operation writes one and no region's window stages one. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W4_untouched m ρ c main_arg0 (by decide) (by decide) (by decide) (by decide)),
    (h c _ (mem_uc main_arg1 (by decide))).trans (W4_untouched m ρ c main_arg1 (by decide) (by decide) (by decide) (by decide)),
    (h c _ (mem_uc main_arg2 (by decide))).trans (W4_untouched m ρ c main_arg2 (by decide) (by decide) (by decide) (by decide)),
    (h c _ (mem_uc main_arg3 (by decide))).trans (W4_untouched m ρ c main_arg3 (by decide) (by decide) (by decide) (by decide)),
    (h c _ (mem_uc main_arg4 (by decide))).trans (W4_untouched m ρ c main_arg4 (by decide) (by decide) (by decide) (by decide)),
    (h c _ (mem_uc main_arg5 (by decide))).trans (W4_untouched m ρ c main_arg5 (by decide) (by decide) (by decide) (by decide)),
    (h c _ (mem_uc main_arg6 (by decide))).trans (W4_untouched m ρ c main_arg6 (by decide) (by decide) (by decide) (by decide)),
    (h c _ (mem_uc main_arg7 (by decide))).trans (W4_untouched m ρ c main_arg7 (by decide) (by decide) (by decide) (by decide))⟩)
    (run_all m ρ)

end Cert.Kernel.Whole

end
-- ==== Proof.KI.Stage1.lean ====
/-
  The first kernel region: at each of its 16 × 8 grid points the body reads a block of 1024 rows of z
  (all 4096 features), the 512 columns of W1 and of W2 that the point's column tile names with the
  matching 512 entries of b1 and b2, and stores the 1024 × 512 block of gated values — content times
  the logistic of the gate — into the output's staging buffer, whole.
  Stated for any contents V of the buffers when the region is entered, at any float instance.
-/
import proofs.«158177_j59167469470253_2_alg».proof.Proof.Gen.KernelIdeal.Launch
import proofs.«158177_j59167469470253_2_alg».proof.Proof.Gen.KernelIdeal.Skeleton
import proofs.«158177_j59167469470253_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a grid point reads -/

/-- Window w's block at grid point t, read off the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body stores -/

abbrev rectZ : Rect S1024x4096 := Rect.unit (s := S1024x4096) ![0, 0] S1024x4096.size inb_S1024x4096_S1024x4096_0_0
abbrev rectW : Rect S4096x512 := Rect.unit (s := S4096x512) ![0, 0] S4096x512.size inb_S4096x512_S4096x512_0_0
abbrev rectB : Rect S1x512 := Rect.unit (s := S1x512) ![0, 0] S1x512.size inb_S1x512_S1x512_0_0
abbrev rectG : Rect S1024x512 := Rect.unit (s := S1024x512) ![0, 0] S1024x512.size inb_S1024x512_S1024x512_0_0

/-- The output's staging buffer after the body: its one whole-block store, of the gated values of the five blocks read. -/
def gatedBlock (x0 : Vec F S1024x4096 .bf16) (x1 : Vec F S4096x512 .bf16) (x2 : Vec F S1x512 .f32)
    (x3 : Vec F S4096x512 .bf16) (x4 : Vec F S1x512 .f32) : Vec F S1024x512 .bf16 :=
  View.canon [⟨rectG, k0_pay1 (View.ld x0 rectZ) (View.ld x1 rectW) (View.ld x2 rectB) (View.ld x3 rectW) (View.ld x4 rectB)⟩]

/-- The one store covers the block. -/
theorem gated_cover (p0 : Vec F S1024x512 .bf16) (y : S1024x512.Idx) :
    ∃ pc ∈ ([⟨rectG, p0⟩] : List (View.Piece (Elt F) S1024x512 .bf16)), y ∈ pc.1.set :=
  View.cover_of_tiled [⟨rectG, p0⟩] S1024x512.size (by rfl) y

/-! ## The body's triple -/

set_option maxHeartbeats 1000000 in
/-- On whole staging memrefs, the five inputs' at contents x0 … x4 and the output's at anything, the body runs to its
    end, leaves the inputs as they were and the output's buffer at the gated block. -/
theorem body_runs (c : Dev nD) (E : Set ℕ) (i : grid0.Coords)
    (arg2 : Memref sig .tc .vmem S1024x4096 .bf16) (harg2 : arg2.IsWhole)
    (arg3 : Memref sig .tc .vmem S4096x512 .bf16) (harg3 : arg3.IsWhole)
    (arg4 : Memref sig .tc .vmem S1x512 .f32) (harg4 : arg4.IsWhole)
    (arg5 : Memref sig .tc .vmem S4096x512 .bf16) (harg5 : arg5.IsWhole)
    (arg6 : Memref sig .tc .vmem S1x512 .f32) (harg6 : arg6.IsWhole)
    (arg7 : Memref sig .tc .vmem S1024x512 .bf16) (harg7 : arg7.IsWhole)
    (x0 : Vec F S1024x4096 .bf16) (x1 : Vec F S4096x512 .bf16) (x2 : Vec F S1x512 .f32)
    (x3 : Vec F S4096x512 .bf16) (x4 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (gatedBlock x0 x1 x2 x3 x4)) -∗ K ⟨⟩))
      ⊢ wp frame (wpE (defs₀ (F := F)) Variants.none c none) E
          (cc0_gate_content_kernel i arg2 harg2 arg3 harg3 arg4 harg4 arg5 harg5 arg6 harg6 arg7 harg7) K := by
  simp only [cc0_gate_content_kernel_eq_skeleton]; unfold cc0_gate_content_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (gated_cover _)

/-! ## The proof data -/

/-- The proof data of the first pipeline on core c: the arrays as the region finds them; after the body at point t each
    input's buffer at its block and the output's at the gated block of the five input blocks; the region invariant the
    scoped buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => gatedBlock (blockAt V c 0 t) (blockAt V c 1 t) (blockAt V c 2 t) (blockAt V c 3 t) (blockAt V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) : (dat V c).after 4 t = blockAt V c 4 t := by dsimp only [dat]
theorem after_5 (c : Dev nD) (t : Fin cfg0.N) : (dat V c).after 5 t =
    gatedBlock (blockAt V c 0 t) (blockAt V c 1 t) (blockAt V c 2 t) (blockAt V c 3 t) (blockAt V c 4 t) := by dsimp only [dat]

/-- An input window's current staging buffer holds the window's block at every point, fetched there or not: where it is
    not fetched the block index has not moved since the point before. -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)
theorem before_3 (c : Dev nD) (t : Fin cfg0.N) (d) : (dat V c).before 3 t d = blockAt V c 3 t :=
  ((dat V c).before_in_eq_fetched 3 rfl (fun _ => rfl) (fun _ _ _ => rfl)
    (fun t => by rw [after_3]; unfold Dat.blockOf blockAt; rw [dat_A]; try rfl) t d).trans
    (by unfold Dat.fetched Dat.blockOf blockAt; rw [dat_A]; try rfl)
theorem before_4 (c : Dev nD) (t : Fin cfg0.N) (d) : (dat V c).before 4 t d = blockAt V c 4 t :=
  ((dat V c).before_in_eq_fetched 4 rfl (fun _ => rfl) (fun _ _ _ => rfl)
    (fun t => by rw [after_4]; unfold Dat.blockOf blockAt; rw [dat_A]; try rfl) t d).trans
    (by unfold Dat.fetched Dat.blockOf blockAt; rw [dat_A]; try rfl)

/-! ## The body obligation -/

/-- What the body is handed at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 1000000 in
/-- The body at any point: the inputs' buffers hold their blocks, so the body's triple applies; the invariant and the
    core's dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation (c : Dev nD) : BodyObligation (dat (F := F) V c) (defs₀ (F := F)) Variants.none () Set.univ := fun t => by
  rw [bigSep_W0, bigSep_W0]
  exact body_at V c t

end Cert.KernelIdeal.Stage1

end
-- ==== Proof.KI.Stage2.lean ====
/-
  The second kernel region, the body. Its grid is 8 × 4 × 8; the last coordinate k runs over the eight
  1024-wide slices of the 8192 gated features. The body keeps a 1024 × 1024 accumulator in a scratch
  buffer that lives across grid points: at k = 0 it is filled with zeros; at every k the product of the
  point's block of gated rows with the point's block of W3 is added to it; at k = 7 the sum plus b3 is
  normalised group by group, scaled by gamma and stored to the output's staging buffer.
  Every load and store is through the whole rectangle of its buffer, so each case of the body leaves the
  accumulator, and at k = 7 the output, at a plain value of what it was handed.
-/
import proofs.«158177_j59167469470253_2_alg».proof.Proof.Gen.KernelIdeal.Launch
import proofs.«158177_j59167469470253_2_alg».proof.Proof.Gen.KernelIdeal.Skeleton
import proofs.«158177_j59167469470253_2_alg».proof.Proof.Gen.KernelIdeal.Points
import Idealize.ShloMosaic.Lib.Pipeline.Value
import Idealize.ShloMosaic.Lib.Pipeline.FrameBody
import Idealize.ShloMosaic.Lib.Pipeline.Frame
import Idealize.ShloMosaic.Lib.Tactic

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whole-buffer accesses sit at offset zero on both axes. -/
theorem offsets_zero : (![0, 0] : Fin 2 → Nat) = fun _ => 0 := funext fun a => by fin_cases a <;> rfl

/-! ## The body's two branch conditions, from the grid coordinates -/

/-- k = 0: the accumulator is zeroed first. -/
abbrev isFirst (i : grid1.Coords) : Prop :=
  (Scalar.cmpi .ne (Scalar.extui (Scalar.cmpi .eq (BitVec.ofNat 32 (i 2).val) 0#32)) 0#32) = 1#1
/-- k = 7: the result is finished and stored. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-! ## What each case leaves -/

/-- The accumulator after a point: what it held plus the product of the point's two blocks. -/
abbrev accumulated (a : Vec F S1024x1024 .f32) (x0 x1 : Vec F S1024x1024 .bf16) : Vec F S1024x1024 .f32 := k1_pay2 a x0 x1
/-- The zero fill. -/
abbrev zeroFill : Vec F S1024x1024 .f32 := k1_pay1 (F := F)
/-- The finished block: the accumulated sum plus the bias row, normalised by groups, times the scale row. -/
abbrev finished (a : Vec F S1024x1024 .f32) (x2 x3 : Vec F S1x1024 .f32) : Vec F S1024x1024 .f32 := k1_pay3 a x2 x3

set_option maxHeartbeats 2000000 in
/-- A middle point (0 < k < 7): the accumulator, handed at a, is left at a plus the product; every other buffer as found. -/
theorem body_middle (c : Dev nD) (E : Set ℕ) (i : grid1.Coords) (hc1 : ¬ isFirst i) (hc2 : ¬ isLast i)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (x0 x1 : Vec F S1024x1024 .bf16) (x2 x3 : Vec F S1x1024 .f32) (xo a : Vec F S1024x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ owns (c : Thread nD τ) arg8 fullShare a
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (xo)
            ∗ owns (c : Thread nD τ) arg8 fullShare (accumulated a x0 x1)) -∗ K ⟨⟩))
      ⊢ wp frame (wpE (defs₀ (F := F)) Variants.none c none) E
          (cc1_mlp_out_kernel i arg3 harg3 arg4 harg4 arg5 harg5 arg6 harg6 arg7 harg7 arg8 harg8) K := by
  simp only [cc1_mlp_out_kernel_eq_skeleton]; unfold cc1_mlp_out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact H5
  ipureintro
  sl_unfold_run_names
  subst hf0; subst hf1; subst hf5
  rw [View.read_writes_eq_canon _ _ _ (fun y => ⟨_, List.mem_cons_self, View.mem_set_unit_zero offsets_zero inb_S1024x1024_S1024x1024_0_0 y⟩), View.canon_cons_unit_zero offsets_zero]
  simp only [View.readAt_eq_ld, View.ld_unit_zero (S := S1024x1024) offsets_zero]

set_option maxHeartbeats 2000000 in
/-- The first point of a sweep (k = 0): whatever the accumulator held, it is left at the zero fill plus the product; every other buffer as found. -/
theorem body_first (c : Dev nD) (E : Set ℕ) (i : grid1.Coords) (hc1 : isFirst i) (hc2 : ¬ isLast i)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (x0 x1 : Vec F S1024x1024 .bf16) (x2 x3 : Vec F S1x1024 .f32) (xo a : Vec F S1024x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (xo)
            ∗ owns (c : Thread nD τ) arg8 fullShare (accumulated zeroFill x0 x1)) -∗ K ⟨⟩))
      ⊢ wp frame (wpE (defs₀ (F := F)) Variants.none c none) E
          (cc1_mlp_out_kernel i arg3 harg3 arg4 harg4 arg5 harg5 arg6 harg6 arg7 harg7 arg8 harg8) K := by
  simp only [cc1_mlp_out_kernel_eq_skeleton]; unfold cc1_mlp_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr
  swap; · iexact H5
  ipureintro
  sl_unfold_run_names
  subst hf0; subst hf1
  rw [View.read_writes_eq_canon _ _ _ (fun y => ⟨_, List.mem_cons_self, View.mem_set_unit_zero offsets_zero inb_S1024x1024_S1024x1024_0_0 y⟩), View.canon_cons_unit_zero offsets_zero]
  simp only [View.readAt_eq_ld, View.ld_unit_zero (S := S1024x1024) offsets_zero, View.readCov_unit_zero (S := S1024x1024) _ offsets_zero]

set_option maxHeartbeats 2000000 in
/-- The last point of a sweep (k = 7): the accumulator is left at a plus the product, and the output's buffer, whatever it held, at the finished block of that sum and the two rows. -/
theorem body_last (c : Dev nD) (E : Set ℕ) (i : grid1.Coords) (hc1 : ¬ isFirst i) (hc2 : isLast i)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (x0 x1 : Vec F S1024x1024 .bf16) (x2 x3 : Vec F S1x1024 .f32) (xo a : Vec F S1024x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare a
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (finished (accumulated a x0 x1) x2 x3)
            ∗ owns (c : Thread nD τ) arg8 fullShare (accumulated a x0 x1)) -∗ K ⟨⟩))
      ⊢ wp frame (wpE (defs₀ (F := F)) Variants.none c none) E
          (cc1_mlp_out_kernel i arg3 harg3 arg4 harg4 arg5 harg5 arg6 harg6 arg7 harg7 arg8 harg8) K := by
  simp only [cc1_mlp_out_kernel_eq_skeleton]; unfold cc1_mlp_out_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    sl_unfold_run_names
    subst hf0; subst hf1; subst hf2; subst hf3; subst hf5
    rw [View.read_writes_eq_canon _ _ _ (fun y => ⟨_, List.mem_cons_self, View.mem_set_unit_zero offsets_zero inb_S1024x1024_S1024x1024_0_0 y⟩), View.canon_cons_unit_zero offsets_zero]
    simp only [View.readAt_eq_ld, View.ld_unit_zero (S := S1024x1024) offsets_zero, View.ld_unit_zero (S := S1x1024) offsets_zero, View.readCov_unit_zero (S := S1024x1024) _ offsets_zero]
  iexists _; isplitr
  swap; · iexact H5
  ipureintro
  sl_unfold_run_names
  subst hf0; subst hf1; subst hf5
  rw [View.read_writes_eq_canon _ _ _ (fun y => ⟨_, List.mem_cons_self, View.mem_set_unit_zero offsets_zero inb_S1024x1024_S1024x1024_0_0 y⟩), View.canon_cons_unit_zero offsets_zero]
  simp only [View.readAt_eq_ld, View.ld_unit_zero (S := S1024x1024) offsets_zero]

end Cert.KernelIdeal.Stage2

end
-- ==== Proof.KI.Stage2Data.lean ====
/-
  The second kernel region, the proof data: what the accumulator holds point by point, the region's invariant
  carrying it, what each window's buffer holds after the body, and the body obligation at every point.
  Stated for any contents V of the buffers when the region is entered, at any float instance.
-/
import proofs.«158177_j59167469470253_2_alg».proof.Proof.Gen.KernelIdeal.Launch
import proofs.«158177_j59167469470253_2_alg».proof.Proof.Gen.KernelIdeal.Skeleton
import proofs.«158177_j59167469470253_2_alg».proof.Proof.Gen.KernelIdeal.Points
import proofs.«158177_j59167469470253_2_alg».proof.Proof.KI.Stage2
import Idealize.ShloMosaic.Lib.Pipeline.Value
import Idealize.ShloMosaic.Lib.Pipeline.FrameBody
import Idealize.ShloMosaic.Lib.Pipeline.Frame
import Idealize.ShloMosaic.Lib.Tactic

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks a grid point reads -/

variable (V : (c : Dev nD) → (b : Ref sig .tc) → Buf (Elt F) ((c : Thread nD τ).loc b))

/-- Window w's block at grid point t, read off the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator, point by point -/

/-- What the accumulator holds after the body at position n of the grid's row-major order: at the first point of a
    sweep over k (n a multiple of 8) the zero fill plus that point's product, otherwise what the point before left
    plus this point's product. -/
def accAt (c : Dev nD) : (n : ℕ) → n < cfg1.N → Vec F S1024x1024 .f32
  | 0, h => accumulated zeroFill (blockAt V c 0 ⟨0, h⟩) (blockAt V c 1 ⟨0, h⟩)
  | n + 1, h =>
    if (n + 1) % 8 = 0 then accumulated zeroFill (blockAt V c 0 ⟨n + 1, h⟩) (blockAt V c 1 ⟨n + 1, h⟩)
    else accumulated (accAt c n (Nat.lt_of_succ_lt h)) (blockAt V c 0 ⟨n + 1, h⟩) (blockAt V c 1 ⟨n + 1, h⟩)

theorem accAt_first (c : Dev nD) (t : Fin cfg1.N) (h : t.val % 8 = 0) :
    accAt V c t.val t.isLt = accumulated zeroFill (blockAt V c 0 t) (blockAt V c 1 t) := by
  obtain ⟨n, hn⟩ := t
  cases n with
  | zero => rfl
  | succ n => exact if_pos h

theorem accAt_next (c : Dev nD) (t : Fin cfg1.N) (h : ¬ t.val % 8 = 0) :
    accAt V c t.val t.isLt = accumulated (accAt V c (t.val - 1) (Nat.lt_of_le_of_lt (Nat.sub_le _ _) t.isLt)) (blockAt V c 0 t) (blockAt V c 1 t) := by
  obtain ⟨n, hn⟩ := t
  cases n with
  | zero => exact absurd (Nat.zero_mod _) h
  | succ n => exact if_neg h

/-! ## The region invariant: the scratch at the accumulator's value -/

/-- The accumulator's buffer, as the body is passed it. -/
abbrev scratchM : Memref sig .tc .vmem S1024x1024 .f32 := Memref.whole cc1_scratch0

/-- The scoped buffers no window of this region stages — the other region's twelve staging buffers at anything, and
    the scratch as S states it — and the generator register at some state. -/
def carried (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ ∃ r, prngReg c r)

/-- Before the first point the scratch is at anything: the class's invariant. -/
theorem PhiA_eq (c : Dev nD) :
    (Pipeline.ΦA spec1 c : sProp 𝕄) = carried c (iprop(∃ d, owns (c : Thread nD τ) scratchM fullShare d)) := by
  unfold Pipeline.ΦA carried; rw [scopedRest1_eq]; simp only [scratchM, owns_whole]; try rfl

/-- The invariant before position n: before the first point the class's; afterwards the scratch at what the point
    before left in it. -/
def Phi (c : Dev nD) : (n : ℕ) → n ≤ cfg1.N → sProp 𝕄
  | 0, _ => Pipeline.ΦA spec1 c
  | n + 1, hn => carried c (owns (c : Thread nD τ) scratchM fullShare (accAt V c n hn))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = carried c (owns (c : Thread nD τ) scratchM fullShare (accAt V c n hn)) := rfl
theorem Phi_pos (c : Dev nD) (n : ℕ) (h : n ≤ cfg1.N) (hz : n ≠ 0) :
    Phi V c n h = carried c (owns (c : Thread nD τ) scratchM fullShare (accAt V c (n - 1) (by omega))) := by
  cases n with
  | zero => exact absurd rfl hz
  | succ n => rfl

/-! ## The proof data -/

/-- The proof data of the second pipeline on core c: the arrays as the region finds them; after the body at point t each
    input's buffer at its block and the output's at the finished block of the accumulator there (read only where k = 7:
    elsewhere the output window is idle); the invariant above; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => finished (accAt V c t.val t.isLt) (blockAt V c 2 t) (blockAt V c 3 t)
  Φ t := Phi V c t.val (Nat.le_of_lt_succ t.isLt)
  q _ := fullShare
  owed _ := 0

theorem dat_A (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t =
    finished (accAt V c t.val t.isLt) (blockAt V c 2 t) (blockAt V c 3 t) := by dsimp only [dat]

/-- An input window's current staging buffer holds the window's block at every point, fetched there or not. -/
theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)
theorem before_3 (c : Dev nD) (t : Fin cfg1.N) (d) : (dat V c).before 3 t d = blockAt V c 3 t :=
  ((dat V c).before_in_eq_fetched 3 rfl (fun _ => rfl) (fun _ _ _ => rfl)
    (fun t => by rw [after_3]; unfold Dat.blockOf blockAt; rw [dat_A]; try rfl) t d).trans
    (by unfold Dat.fetched Dat.blockOf blockAt; rw [dat_A]; try rfl)

/-! ## Where the output window is idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- Away from k = 7 the body stores nothing into the output window and the pipeline does not write it back; -/
theorem out_idle : ∀ t : Fin cfg1.N, ¬ isLast (grid1.coords t) → cfg1.idle 4 (grid1.coords t) = true := by decide +kernel
theorem out_noflush : ∀ t : Fin cfg1.N, ¬ isLast (grid1.coords t) → (cfg1.win 4).flush t = false := by decide +kernel
/-- at k = 7 it is live. -/
theorem out_live : ∀ t : Fin cfg1.N, isLast (grid1.coords t) → cfg1.idle 4 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4000000 in
/-- The body at any point: the inputs' buffers hold their blocks; whether k is 0, 7 or between says which case of the
    body runs; the invariant hands the body the scratch at what the point before left (at anything before the first point
    of all) and takes it back at this point's value. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  by_cases hF : t.val % 8 = 0
  · have hL : ¬ t.val % 8 = 7 := by omega
    have hcL : ¬ isLast (grid1.coords t) := fun h => hL ((isLast_iff t).mp h)
    rw [Dat.leavesExact_idle (dat V c) 4 t (out_idle t hcL) (out_noflush t hcL), accAt_first V c t hF]
    by_cases hz : t.val = 0
    · rw [Phi_castSucc V c t, Phi_zero V c _ _ hz, PhiA_eq]; unfold carried
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_first c Set.univ (grid1.coords t) ((isFirst_iff t).mpr hF) hcL _ _ _ _ _ _ _ _ _ _ _ _
        (blockAt V c 0 t) (blockAt V c 1 t) (blockAt V c 2 t) (blockAt V c 3 t) ((dat V c).before 4 t d4) zeroFill _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexists _; iexact H4
    · rw [Phi_castSucc V c t, Phi_pos V c _ _ hz]; unfold carried
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_first c Set.univ (grid1.coords t) ((isFirst_iff t).mpr hF) hcL _ _ _ _ _ _ _ _ _ _ _ _
        (blockAt V c 0 t) (blockAt V c 1 t) (blockAt V c 2 t) (blockAt V c 3 t) ((dat V c).before 4 t d4) zeroFill _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hF (by rw [h])
    have hcF : ¬ isFirst (grid1.coords t) := fun h => hF ((isFirst_iff t).mp h)
    rw [accAt_next V c t hF, Phi_castSucc V c t, Phi_pos V c _ _ hz]; unfold carried
    by_cases hL : t.val % 8 = 7
    · have hcL : isLast (grid1.coords t) := (isLast_iff t).mpr hL
      rw [show (dat V c).leavesExact 4 t = owns (c : Thread nD τ) (st1_4 t) fullShare ((dat V c).after 4 t) from by
        unfold Dat.leavesExact; rw [out_live t hcL], after_4, accAt_next V c t hF]
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_last c Set.univ (grid1.coords t) hcF hcL _ _ _ _ _ _ _ _ _ _ _ _
        (blockAt V c 0 t) (blockAt V c 1 t) (blockAt V c 2 t) (blockAt V c 3 t) zeroFill
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexact H4
    · have hcL : ¬ isLast (grid1.coords t) := fun h => hL ((isLast_iff t).mp h)
      rw [Dat.leavesExact_idle (dat V c) 4 t (out_idle t hcL) (out_noflush t hcL)]
      iintro ⟨⟨⟨A0, A1, A2, A3, A4, A5, A6, A7, A8, A9, A10, A11, HS⟩, Hg⟩, Ho, ⟨%d0, H0⟩, ⟨%d1, H1⟩, ⟨%d2, H2⟩, ⟨%d3, H3⟩, ⟨%d4, H4⟩⟩
      iapply (body_middle c Set.univ (grid1.coords t) hcF hcL _ _ _ _ _ _ _ _ _ _ _ _
        (blockAt V c 0 t) (blockAt V c 1 t) (blockAt V c 2 t) (blockAt V c 3 t) ((dat V c).before 4 t d4)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [A0 A1 A2 A3 A4 A5 A6 A7 A8 A9 A10 A11 HS Hg]
      · isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          iexact HS
        · iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation (c : Dev nD) : BodyObligation (dat (F := F) V c) (defs₀ (F := F)) Variants.none () Set.univ := fun t => by
  rw [bigSep_W1, bigSep_W1]
  exact body_at V c t

/-! ## The invariant at the region's two ends -/

/-- What the region is entered with is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the class's back: the scratch's value is forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 256 := N_1; omega), PhiA_eq]
  unfold carried
  iintro ⟨⟨A0, A1, A2, A3, A4, A5, A6, A7, A8, A9, A10, A11, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexists _; iexact HS
  · iexact Hg

end Cert.KernelIdeal.Stage2

end
-- ==== Proof.KI.Run.lean ====
/-
  The whole program as a run: nine host operations (a reshape of z to rows, format changes of z and the three weight
  matrices, the four bias and scale vectors as rows), the first kernel region, the second kernel region, and a
  last reshape. The buffers' contents at each boundary are a fold from the launch memory: a host stretch applies its
  operations, a kernel region leaves each of its windows' arrays at what its write-backs make of it and every other
  buffer as it was. Every weakly fair execution terminates, nothing faulting, and the final memory holds every
  unscoped buffer at the last boundary's contents — the result among them, and each argument as launched.
-/
import proofs.«158177_j59167469470253_2_alg».proof.Proof.KI.Stage1
import proofs.«158177_j59167469470253_2_alg».proof.Proof.KI.Stage2Data
import proofs.«158177_j59167469470253_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the nine host operations: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as entered. -/
def W2 (c : Dev nD) : Valuation τ sig (Elt F) :=
  Pipeline.withArrays spec0 c (W1 m ρ c) fun w => (Stage1.dat (V1 m ρ) c).arrAt w cfg0.N
theorem W2_arr (c : Dev nD) (w : Fin cfg0.W) :
    W2 m ρ c (Proc.devRef .tc (Pipeline.arrRef spec0 w)) = (Stage1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (Stage1.dat (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region, entered where the first left off. -/
def W3 (c : Dev nD) : Valuation τ sig (Elt F) :=
  Pipeline.withArrays spec1 c (W2 m ρ c) fun w => (Stage2.dat (V2 m ρ) c).arrAt w cfg1.N
theorem W3_arr (c : Dev nD) (w : Fin cfg1.W) :
    W3 m ρ c (Proc.devRef .tc (Pipeline.arrRef spec1 w)) = (Stage2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem exit1_arr (c : Dev nD) (w : Fin cfg1.W) : (Stage2.dat (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last reshape: the end. -/
abbrev W4 : Dev nD → Valuation τ sig (Elt F) := fun c => StableHlo.after hostOps2 (W3 m ρ c)

/-- A buffer that no host operation writes and no region's window stages ends as launched. -/
theorem W4_untouched (c : Dev nD) (r : Ref sig .tc) (h0 : r ∉ (hostOps0_W : List (Ref sig .tc))) (h2 : r ∉ (hostOps2_W : List (Ref sig .tc)))
    (hs0 : ∀ w, Pipeline.arrRef spec0 w ≠ r) (hs1 : ∀ w, Pipeline.arrRef spec1 w ≠ r) :
    W4 m ρ c (Proc.devRef .tc r) = m ((c : Thread nD τ).loc r) :=
  (StableHlo.after_of_writes_sub hostOps2 _ hostOps2_writes h2).trans <|
    (W3_of_ne m ρ c r hs1).trans <| (W2_of_ne m ρ c r hs0).trans <|
      (StableHlo.after_of_writes_sub hostOps0 _ hostOps0_writes h0).trans rfl

/-! ## The proof data family and what rides beside the buffers -/

abbrev noTables : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) noTables p) c
  | ⟨0, _⟩ => fun c => Stage1.dat (V1 m ρ) c
  | ⟨1, _⟩ => fun c => Stage2.dat (V2 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at W1, left at W2. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3; its invariant starts as the class's and gives
    the class's back at the end. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stage2.Phi_in (V2 m ρ) c)
    unfold Pipeline.ΦA
    iintro ⟨Hp, -, Hr⟩
    isplitl [Hr]; · iexact Hr
    iexact Hp
  hout c := by
    rw [Pipeline.ownSems0_none]
    refine BIBase.Entails.trans (Stage2.Phi_out (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) noTables (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tend m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched — no host operation writes one and no region's window stages one. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W4_untouched m ρ c main_arg0 (by decide) (by decide) (by decide) (by decide)),
    (h c _ (mem_uc main_arg1 (by decide))).trans (W4_untouched m ρ c main_arg1 (by decide) (by decide) (by decide) (by decide)),
    (h c _ (mem_uc main_arg2 (by decide))).trans (W4_untouched m ρ c main_arg2 (by decide) (by decide) (by decide) (by decide)),
    (h c _ (mem_uc main_arg3 (by decide))).trans (W4_untouched m ρ c main_arg3 (by decide) (by decide) (by decide) (by decide)),
    (h c _ (mem_uc main_arg4 (by decide))).trans (W4_untouched m ρ c main_arg4 (by decide) (by decide) (by decide) (by decide)),
    (h c _ (mem_uc main_arg5 (by decide))).trans (W4_untouched m ρ c main_arg5 (by decide) (by decide) (by decide) (by decide)),
    (h c _ (mem_uc main_arg6 (by decide))).trans (W4_untouched m ρ c main_arg6 (by decide) (by decide) (by decide) (by decide)),
    (h c _ (mem_uc main_arg7 (by decide))).trans (W4_untouched m ρ c main_arg7 (by decide) (by decide) (by decide) (by decide))⟩)
    (run_all m ρ)

end Cert.KernelIdeal.Whole

end
-- ==== Proof.KI.Payloads.lean ====
/-
  The kernel bodies' stored values, read at an index on the extended reals.

  The first body stores, at row r and column n of its block, the content — row r of the z block
  against column n of the W2 block, plus the b2 entry — times the logistic of the gate, the same with
  W1 and b1. The second body's scratch block starts at zero, gains one product of a 1024-wide slab per
  step, and at the last step gets the bias added, is viewed as 8 groups of 128 lanes per row, and each
  entry is divided by the root of its group's mean square plus a small constant and scaled.
  A matrix product into a zero accumulator is the plain sum over the contracted axis; a change of
  float format is the identity here.
-/
import proofs.«158177_j59167469470253_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.Payloads

open Idealize.ShloMosaic Idealize.ShloMosaic.ValueIdx Cert.KernelIdeal Cert.KernelIdeal.Gen

/-! ## Layout operations at an index -/

/-- One row laid along every row: entry (r, c) of the broadcast is entry (0, c) of the row. -/
theorem row_broadcast_apply {α : Type} {m n : Nat} (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 (0 : Fin 1) c) :=
  broadcastTo_apply v h (ix2 r c) (ix2 (0 : Fin 1) c) (fun a => match a with
    | ⟨0, _⟩ => by show 0 = if (1 : Nat) = 1 then 0 else r.val; rw [if_pos rfl]
    | ⟨1, _⟩ => by
      show c.val = if n = 1 then 0 else c.val
      have := c.isLt
      split <;> omega)

/-- A row of 1024 viewed as 8 groups of 128: place l of group g is entry 128 g + l. -/
theorem groups_apply {α : Type} (v : S1024x1024.Idx → α) (h : S1024x1024.ShapeCasts S1024x8x128)
    (r : Fin 1024) (g : Fin 8) (l : Fin 128) :
    shapeCast S1024x8x128 v h (ix3 r g l) = v (ix2 r (⟨g.val * 128 + l.val, by omega⟩ : Fin 1024)) :=
  shapeCast_apply v h (ix3 r g l) (ix2 r (⟨g.val * 128 + l.val, by omega⟩ : Fin 1024)) (by
    rewrite [Shape.rowMajor_val_two, Shape.rowMajor_val_three]
    show r.val * 1024 + (g.val * 128 + l.val) = (r.val * 8 + g.val) * 128 + l.val
    omega)

/-- And back: entry o of a row is place o % 128 of group o / 128. -/
theorem flat_apply {α : Type} (v : S1024x8x128.Idx → α) (h : S1024x8x128.ShapeCasts S1024x1024)
    (r : Fin 1024) (o : Fin 1024) :
    shapeCast S1024x1024 v h (ix2 r o)
      = v (ix3 r (⟨o.val / 128, by omega⟩ : Fin 8) (⟨o.val % 128, by omega⟩ : Fin 128)) :=
  shapeCast_apply v h (ix2 r o) (ix3 r (⟨o.val / 128, by omega⟩ : Fin 8) (⟨o.val % 128, by omega⟩ : Fin 128)) (by
    rewrite [Shape.rowMajor_val_two, Shape.rowMajor_val_three]
    show (r.val * 8 + o.val / 128) * 128 + o.val % 128 = r.val * 1024 + o.val
    omega)

/-- A per-group value given a trailing axis of one place. -/
theorem keep_apply {α : Type} (v : S1024x8.Idx → α) (h : S1024x8.ShapeCasts S1024x8x1)
    (r : Fin 1024) (g : Fin 8) (u : Fin 1) :
    shapeCast S1024x8x1 v h (ix3 r g u) = v (ix2 r g) :=
  shapeCast_apply v h (ix3 r g u) (ix2 r g) (by
    rewrite [Shape.rowMajor_val_two, Shape.rowMajor_val_three]
    show r.val * 8 + g.val = (r.val * 8 + g.val) * 1 + u.val
    omega)

/-- A per-group value laid along its group's 128 places. -/
theorem lanes_broadcast_apply {α : Type} (v : S1024x8x1.Idx → α) (h : S1024x8x1.Broadcasts S1024x8x128)
    (r : Fin 1024) (g : Fin 8) (l : Fin 128) :
    broadcastTo S1024x8x128 v h (ix3 r g l) = v (ix3 r g (0 : Fin 1)) :=
  broadcastTo_apply v h (ix3 r g l) (ix3 r g (0 : Fin 1)) (fun a => match a with
    | ⟨0, _⟩ => by show r.val = if (1024 : Nat) = 1 then 0 else r.val; rw [if_neg (by decide)]
    | ⟨1, _⟩ => by show g.val = if (8 : Nat) = 1 then 0 else g.val; rw [if_neg (by decide)]
    | ⟨2, _⟩ => by show 0 = if (1 : Nat) = 1 then 0 else l.val; rw [if_pos rfl])

/-- The sum over a group's 128 places. -/
theorem lane_sum_apply (v : FVec Ideal S1024x8x128 .f32) (h : S1024x8x128.Reduces [2] S1024x8)
    (hφ : FKind.Formats .f32) (hacc : (0x00000000#32 : BitVec 32) = 0x00000000#32) (r : Fin 1024) (g : Fin 8) :
    multiReduction .add [2] S1024x8 v 0x00000000#32 h hφ hacc (ix2 r g) = ∑ k : Fin 128, v (ix3 r g k) := by
  refine (Ideal.multiReduction_add_single v 0x00000000#32 h hφ hacc (ix2 r g)).trans ?_
  exact Finset.sum_congr rfl fun k _ => congrArg v (funext fun a => Fin.ext (by
    match a with | ⟨0, _⟩ => rfl | ⟨1, _⟩ => rfl | ⟨2, _⟩ => rfl))

/-- The root, entry by entry. -/
theorem sqrt_apply {s : Shape} {φ : FTy} (a : FVec Ideal s φ) (i : s.Idx) : sqrt a i = Ideal.sqrt (a i) := rfl

/-! ## Matrix products into a zero accumulator -/

theorem product_4096_lhs_row (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem product_4096_rhs_col (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- A 1024 × 4096 block against a 4096 × 512 block: entry (r, n) is the sum over the 4096 shared places. -/
theorem product_4096_apply {φ₁ φ₂ : FTy} (a : FVec Ideal S1024x4096 φ₁) (b : FVec Ideal S4096x512 φ₂) (r : Fin 1024) (n : Fin 512) :
    matmul dot_S1024x4096_S4096x512_S1024x512_1_0_0_1_n_n none a b (constant S1024x512 .f32 0x00000000#32) (ix2 r n)
      = ∑ d : Fin 4096, a (ix2 r d) * b (ix2 d n) := by
  show FloatOps.matmul dot_S1024x4096_S4096x512_S1024x512_1_0_0_1_n_n none a b (constant S1024x512 .f32 0x00000000#32) (ix2 r n) = _
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 r n) ((contrEquiv1 dot_S1024x4096_S4096x512_S1024x512_1_0_0_1_n_n 4096 rfl rfl).symm k) = ix2 r k :=
    funext fun c => Fin.ext (by
      match c with
      | ⟨0, _⟩ => exact product_4096_lhs_row _ _
      | ⟨1, _⟩ => exact (dot_S1024x4096_S4096x512_S1024x512_1_0_0_1_n_n.lhsIdx_val_of_single rfl (ix2 r n) _).trans hk)
  have er : dot_S1024x4096_S4096x512_S1024x512_1_0_0_1_n_n.rhsIdx (ix2 r n) ((contrEquiv1 dot_S1024x4096_S4096x512_S1024x512_1_0_0_1_n_n 4096 rfl rfl).symm k) = ix2 k n :=
    funext fun c => Fin.ext (by
      match c with
      | ⟨0, _⟩ => exact (dot_S1024x4096_S4096x512_S1024x512_1_0_0_1_n_n.rhsIdx_val_of_single rfl (ix2 r n) _).trans hk
      | ⟨1, _⟩ => exact product_4096_rhs_col _ _)
  rw [el, er]

theorem product_1024_lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem product_1024_rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A 1024 × 1024 block against a 1024 × 1024 block. -/
theorem product_1024_apply {φ₁ φ₂ : FTy} (a : FVec Ideal S1024x1024 φ₁) (b : FVec Ideal S1024x1024 φ₂) (r : Fin 1024) (n : Fin 1024) :
    matmul dot_S1024x1024_S1024x1024_S1024x1024_1_0_0_1_n_n none a b (constant S1024x1024 .f32 0x00000000#32) (ix2 r n)
      = ∑ d : Fin 1024, a (ix2 r d) * b (ix2 d n) := by
  show FloatOps.matmul dot_S1024x1024_S1024x1024_S1024x1024_1_0_0_1_n_n none a b (constant S1024x1024 .f32 0x00000000#32) (ix2 r n) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r n) ((contrEquiv1 dot_S1024x1024_S1024x1024_S1024x1024_1_0_0_1_n_n 1024 rfl rfl).symm k) = ix2 r k :=
    funext fun c => Fin.ext (by
      match c with
      | ⟨0, _⟩ => exact product_1024_lhs_row _ _
      | ⟨1, _⟩ => exact (dot_S1024x1024_S1024x1024_S1024x1024_1_0_0_1_n_n.lhsIdx_val_of_single rfl (ix2 r n) _).trans hk)
  have er : dot_S1024x1024_S1024x1024_S1024x1024_1_0_0_1_n_n.rhsIdx (ix2 r n) ((contrEquiv1 dot_S1024x1024_S1024x1024_S1024x1024_1_0_0_1_n_n 1024 rfl rfl).symm k) = ix2 k n :=
    funext fun c => Fin.ext (by
      match c with
      | ⟨0, _⟩ => exact (dot_S1024x1024_S1024x1024_S1024x1024_1_0_0_1_n_n.rhsIdx_val_of_single rfl (ix2 r n) _).trans hk
      | ⟨1, _⟩ => exact product_1024_rhs_col _ _)
  rw [el, er]

/-! ## The stored values -/

/-- The first body's stored value: content times the logistic of the gate. -/
theorem gated_apply (x0 : FVec Ideal S1024x4096 .bf16) (x1 : FVec Ideal S4096x512 .bf16) (x2 : FVec Ideal S1x512 .f32)
    (x3 : FVec Ideal S4096x512 .bf16) (x4 : FVec Ideal S1x512 .f32) (r : Fin 1024) (n : Fin 512) :
    k0_pay1 (F := Ideal) x0 x1 x2 x3 x4 (ix2 r n)
      = ((∑ d : Fin 4096, x0 (ix2 r d) * x3 (ix2 d n)) + x4 (ix2 (0 : Fin 1) n))
        * Ideal.logistic ((∑ d : Fin 4096, x0 (ix2 r d) * x1 (ix2 d n)) + x2 (ix2 (0 : Fin 1) n)) := by
  unfold k0_pay1
  simp only [shapeCast_self]
  show (matmul dot_S1024x4096_S4096x512_S1024x512_1_0_0_1_n_n none x0 x3 (constant S1024x512 .f32 0x00000000#32) (ix2 r n)
        + broadcastTo S1024x512 x4 broadcasts_S1x512_S1024x512 (ix2 r n))
      * Ideal.logistic (matmul dot_S1024x4096_S4096x512_S1024x512_1_0_0_1_n_n none x0 x1 (constant S1024x512 .f32 0x00000000#32) (ix2 r n)
        + broadcastTo S1024x512 x2 broadcasts_S1x512_S1024x512 (ix2 r n)) = _
  rw [product_4096_apply, product_4096_apply, row_broadcast_apply, row_broadcast_apply]

/-- The second body's scratch block starts at zero. -/
theorem zero_apply (r o : Fin 1024) : k1_pay1 (F := Ideal) (ix2 r o) = 0 := by
  unfold k1_pay1
  simp only [shapeCast_self]
  exact Ideal.ofBits_zero_f32

/-- Each step adds one slab's product to the scratch block. -/
theorem accumulated_apply (a : FVec Ideal S1024x1024 .f32) (x0 x1 : FVec Ideal S1024x1024 .bf16) (r o : Fin 1024) :
    k1_pay2 (F := Ideal) a x0 x1 (ix2 r o) = a (ix2 r o) + ∑ j : Fin 1024, x0 (ix2 r j) * x1 (ix2 j o) := by
  unfold k1_pay2
  simp only [shapeCast_self]
  show a (ix2 r o) + matmul dot_S1024x1024_S1024x1024_S1024x1024_1_0_0_1_n_n none x0 x1 (constant S1024x1024 .f32 0x00000000#32) (ix2 r o) = _
  rw [product_1024_apply]

/-- Row r of the scratch block with the bias added. -/
def biased (a : FVec Ideal S1024x1024 .f32) (x2 : FVec Ideal S1x1024 .f32) (r : Fin 1024) : Fin 1024 → EReal :=
  fun o' => a (ix2 r o') + x2 (ix2 (0 : Fin 1) o')

/-- The last step's stored value: the biased entry over the root of its group's mean square plus
    the small constant, times the scale. The group of entry o is o / 128; its 128 entries are
    128 (o / 128) + l. -/
theorem finished_apply (a : FVec Ideal S1024x1024 .f32) (x2 x3 : FVec Ideal S1x1024 .f32) (r o : Fin 1024) :
    k1_pay3 (F := Ideal) a x2 x3 (ix2 r o)
      = Ideal.div (biased a x2 r o)
          (Ideal.sqrt (Ideal.div
              (∑ l : Fin 128, biased a x2 r ⟨(o.val / 128) * 128 + l.val, by omega⟩
                * biased a x2 r ⟨(o.val / 128) * 128 + l.val, by omega⟩)
              (Ideal.ofBits .f32 0x43000000#32) + Ideal.ofBits .f32 0x358637BD#32))
        * x3 (ix2 (0 : Fin 1) o) := by
  have eo : (⟨(⟨o.val / 128, by omega⟩ : Fin 8).val * 128 + (⟨o.val % 128, by omega⟩ : Fin 128).val, by
      show o.val / 128 * 128 + o.val % 128 < 1024; omega⟩ : Fin 1024) = o := Fin.ext (by
    show o.val / 128 * 128 + o.val % 128 = o.val; omega)
  unfold k1_pay3
  simp only [shapeCast_self]
  rw [mulf_apply, row_broadcast_apply, flat_apply, divf_apply, groups_apply, addf_apply, row_broadcast_apply, eo,
    lanes_broadcast_apply, sqrt_apply, addf_apply, divf_apply, broadcast_apply, broadcast_apply, keep_apply, lane_sum_apply]
  refine congrArg (fun t => Ideal.div _ (Ideal.sqrt (Ideal.div t _ + _)) * _) (Finset.sum_congr rfl fun l _ => ?_)
  rw [mulf_apply, groups_apply, addf_apply, row_broadcast_apply]
  rfl

end Cert.KernelIdeal.Payloads

end
-- ==== Proof.KI.Stage1Value.lean ====
/-
  The first region's output as one array.

  Grid point t of the 16 × 8 grid has column tile t / 8 (512 columns) and row tile t % 8 (1024 rows).
  It reads rows 1024 (t % 8) … of z, columns 512 (t / 8) … of W1 and W2 with the matching entries of
  b1 and b2, and writes back the 1024 × 512 block of gated values at that row and column tile. Entry
  (R, N) of the output is therefore written by the point (N / 512) * 8 + R / 1024, and holds the
  content of row R at feature N times the logistic of the gate of row R at feature N.
-/
import proofs.«158177_j59167469470253_2_alg».proof.Proof.KI.Stage1
import proofs.«158177_j59167469470253_2_alg».proof.Proof.KI.Payloads
import Idealize.ShloMosaic.Lib.Pipeline.Value
import Idealize.ShloMosaic.Lib.ValueIdx

set_option maxRecDepth 16384

noncomputable section

namespace Cert.KernelIdeal.Stage1Value

open Cert.KernelIdeal Cert.KernelIdeal.Gen
open Idealize.ShloMosaic Idealize.ShloMosaic.TcCoe Idealize.ShloMosaic.ValueIdx
open Idealize.SL.Sem
open Idealize.ShloMosaic.Pipeline (Dat)

/-- Entry (R, N) of the gated array: content times the logistic of the gate. -/
def gatedEntry (z2 : S8192x4096.Idx → EReal) (w1 : S4096x8192.Idx → EReal) (b1 : S1x8192.Idx → EReal)
    (w2 : S4096x8192.Idx → EReal) (b2 : S1x8192.Idx → EReal) (R N : Fin 8192) : EReal :=
  ((∑ d : Fin 4096, z2 (ix2 R d) * w2 (ix2 d N)) + b2 (ix2 (0 : Fin 1) N))
    * Ideal.logistic ((∑ d : Fin 4096, z2 (ix2 R d) * w1 (ix2 d N)) + b1 (ix2 (0 : Fin 1) N))

variable (V : (c : Dev nD) → (b : Ref sig .tc) → Buf (Elt Ideal) ((c : Thread nD τ).loc b))

/-- The gated array of the region-entry contents. -/
def gatedArray (c : Dev nD) : S8192x8192.Idx → EReal :=
  fun I => gatedEntry (V c main_v1) (V c main_v2) (V c main_v5) (V c main_v3) (V c main_v6) (I 0) (I 1)

theorem hz : (![0, 0] : Fin 2 → Nat) = fun _ => 0 := funext fun a => by fin_cases a <;> rfl

/-- The tiles of point t: the row tile is t % 8, the column tile t / 8. -/
theorem tiles : ∀ t : Fin cfg0.N,
    win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8
    ∧ win0_5.index t (0 : Fin 2) = t.val % 8 ∧ win0_5.index t (1 : Fin 2) = t.val / 8 :=
  (by decide +kernel : ∀ t : Fin grid0.N, _)

/-- The z block of point t is rows 1024 (t % 8) … of z. -/
theorem z_block (c : Dev nD) (t : Fin cfg0.N) (r : Fin 1024) (d : Fin 4096) (R : Fin 8192)
    (hR : R.val = t.val % 8 * 1024 + r.val) :
    (Stage1.blockAt V c 0 t : S1024x4096.Idx → EReal) (ix2 r d) = (V c main_v1 : S8192x4096.Idx → EReal) (ix2 R d) := by
  obtain ⟨e0, e1, -⟩ := tiles t
  unfold Stage1.blockAt
  rw [View.read_apply]
  show (V c main_v1 : S8192x4096.Idx → EReal) _ = (V c main_v1 : S8192x4096.Idx → EReal) _
  congr 1
  funext a
  apply Fin.ext
  match a with
  | ⟨0, _⟩ => show win0_0.index t (0 : Fin 2) * 1024 + 1 * r.val = R.val; rw [e0, hR]; omega
  | ⟨1, _⟩ => show win0_0.index t (1 : Fin 2) * 4096 + 1 * d.val = d.val; rw [e1]; omega

/-- The W1 block of point t is columns 512 (t / 8) … of W1. -/
theorem w1_block (c : Dev nD) (t : Fin cfg0.N) (d : Fin 4096) (n : Fin 512) (N : Fin 8192)
    (hN : N.val = t.val / 8 * 512 + n.val) :
    (Stage1.blockAt V c 1 t : S4096x512.Idx → EReal) (ix2 d n) = (V c main_v2 : S4096x8192.Idx → EReal) (ix2 d N) := by
  obtain ⟨-, -, e0, e1, -⟩ := tiles t
  unfold Stage1.blockAt
  rw [View.read_apply]
  show (V c main_v2 : S4096x8192.Idx → EReal) _ = (V c main_v2 : S4096x8192.Idx → EReal) _
  congr 1
  funext a
  apply Fin.ext
  match a with
  | ⟨0, _⟩ => show win0_1.index t (0 : Fin 2) * 4096 + 1 * d.val = d.val; rw [e0]; omega
  | ⟨1, _⟩ => show win0_1.index t (1 : Fin 2) * 512 + 1 * n.val = N.val; rw [e1, hN]; omega

/-- The b1 block of point t is entries 512 (t / 8) … of b1. -/
theorem b1_block (c : Dev nD) (t : Fin cfg0.N) (n : Fin 512) (N : Fin 8192)
    (hN : N.val = t.val / 8 * 512 + n.val) :
    (Stage1.blockAt V c 2 t : S1x512.Idx → EReal) (ix2 (0 : Fin 1) n) = (V c main_v5 : S1x8192.Idx → EReal) (ix2 (0 : Fin 1) N) := by
  obtain ⟨-, -, -, -, e0, e1, -⟩ := tiles t
  unfold Stage1.blockAt
  rw [View.read_apply]
  show (V c main_v5 : S1x8192.Idx → EReal) _ = (V c main_v5 : S1x8192.Idx → EReal) _
  congr 1
  funext a
  apply Fin.ext
  match a with
  | ⟨0, _⟩ => show win0_2.index t (0 : Fin 2) * 1 + 1 * 0 = 0; rw [e0]
  | ⟨1, _⟩ => show win0_2.index t (1 : Fin 2) * 512 + 1 * n.val = N.val; rw [e1, hN]; omega

/-- The W2 block of point t is columns 512 (t / 8) … of W2. -/
theorem w2_block (c : Dev nD) (t : Fin cfg0.N) (d : Fin 4096) (n : Fin 512) (N : Fin 8192)
    (hN : N.val = t.val / 8 * 512 + n.val) :
    (Stage1.blockAt V c 3 t : S4096x512.Idx → EReal) (ix2 d n) = (V c main_v3 : S4096x8192.Idx → EReal) (ix2 d N) := by
  obtain ⟨-, -, -, -, -, -, e0, e1, -⟩ := tiles t
  unfold Stage1.blockAt
  rw [View.read_apply]
  show (V c main_v3 : S4096x8192.Idx → EReal) _ = (V c main_v3 : S4096x8192.Idx → EReal) _
  congr 1
  funext a
  apply Fin.ext
  match a with
  | ⟨0, _⟩ => show win0_3.index t (0 : Fin 2) * 4096 + 1 * d.val = d.val; rw [e0]; omega
  | ⟨1, _⟩ => show win0_3.index t (1 : Fin 2) * 512 + 1 * n.val = N.val; rw [e1, hN]; omega

/-- The b2 block of point t is entries 512 (t / 8) … of b2. -/
theorem b2_block (c : Dev nD) (t : Fin cfg0.N) (n : Fin 512) (N : Fin 8192)
    (hN : N.val = t.val / 8 * 512 + n.val) :
    (Stage1.blockAt V c 4 t : S1x512.Idx → EReal) (ix2 (0 : Fin 1) n) = (V c main_v6 : S1x8192.Idx → EReal) (ix2 (0 : Fin 1) N) := by
  obtain ⟨-, -, -, -, -, -, -, -, e0, e1, -⟩ := tiles t
  unfold Stage1.blockAt
  rw [View.read_apply]
  show (V c main_v6 : S1x8192.Idx → EReal) _ = (V c main_v6 : S1x8192.Idx → EReal) _
  congr 1
  funext a
  apply Fin.ext
  match a with
  | ⟨0, _⟩ => show win0_4.index t (0 : Fin 2) * 1 + 1 * 0 = 0; rw [e0]
  | ⟨1, _⟩ => show win0_4.index t (1 : Fin 2) * 512 + 1 * n.val = N.val; rw [e1, hN]; omega

/-- The first body's stored value at any index of its block. -/
theorem gated_at (x0 : FVec Ideal S1024x4096 .bf16) (x1 : FVec Ideal S4096x512 .bf16) (x2 : FVec Ideal S1x512 .f32)
    (x3 : FVec Ideal S4096x512 .bf16) (x4 : FVec Ideal S1x512 .f32) (j : S1024x512.Idx) :
    k0_pay1 (F := Ideal) x0 x1 x2 x3 x4 j
      = ((∑ d : Fin 4096, x0 (ix2 (j 0 : Fin 1024) d) * x3 (ix2 d (j 1 : Fin 512))) + x4 (ix2 (0 : Fin 1) (j 1 : Fin 512)))
        * Ideal.logistic ((∑ d : Fin 4096, x0 (ix2 (j 0 : Fin 1024) d) * x1 (ix2 d (j 1 : Fin 512))) + x2 (ix2 (0 : Fin 1) (j 1 : Fin 512))) := by
  obtain ⟨r, n, rfl⟩ : ∃ (r : Fin 1024) (n : Fin 512), j = ix2 r n := ⟨j 0, j 1, eq_ix2 j⟩
  exact Payloads.gated_apply x0 x1 x2 x3 x4 r n

/-- What point t writes back is block t of the gated array. -/
theorem flushed_eq (c : Dev nD) (t : Fin cfg0.N) :
    (Stage1.dat (F := Ideal) V c).flushed 5 t = ((cfg0.win 5).blk t).view.read (Elt Ideal) (gatedArray V c) := by
  show (cfg0.win 5).cut (grid0.coords t) ((Stage1.dat (F := Ideal) V c).after 5 t) = _
  rw [Stage1.after_5]
  unfold Stage1.gatedBlock
  rw [View.canon_unit_zero hz]
  simp only [View.ld_unit_zero (S := S1024x4096) hz, View.ld_unit_zero (S := S4096x512) hz, View.ld_unit_zero (S := S1x512) hz]
  obtain ⟨-, -, -, -, -, -, -, -, -, -, e0, e1⟩ := tiles t
  funext j
  have hj0 : (j 0).val < 1024 := (j 0).isLt
  have hj1 : (j 1).val < 512 := (j 1).isLt
  have ht : t.val < 128 := Nat.lt_of_lt_of_eq t.isLt N_0
  rw [View.read_apply]
  refine (gated_at _ _ _ _ _ j).trans ?_
  have hI : ((cfg0.win 5).blk t).view.emb j
      = ix2 (⟨t.val % 8 * 1024 + (j 0).val, by omega⟩ : Fin 8192) (⟨t.val / 8 * 512 + (j 1).val, by omega⟩ : Fin 8192) := by
    funext a; apply Fin.ext
    match a with
    | ⟨0, _⟩ => show win0_5.index t (0 : Fin 2) * 1024 + 1 * (j 0).val = t.val % 8 * 1024 + (j 0).val; rw [e0]; omega
    | ⟨1, _⟩ => show win0_5.index t (1 : Fin 2) * 512 + 1 * (j 1).val = t.val / 8 * 512 + (j 1).val; rw [e1]; omega
  have hzb : ∀ d : Fin 4096, (Stage1.blockAt V c 0 t : S1024x4096.Idx → EReal) (ix2 (j 0 : Fin 1024) d)
      = (V c main_v1 : S8192x4096.Idx → EReal) (ix2 (⟨t.val % 8 * 1024 + (j 0).val, by omega⟩ : Fin 8192) d) :=
    fun d => z_block V c t _ d _ rfl
  have hw1 : ∀ d : Fin 4096, (Stage1.blockAt V c 1 t : S4096x512.Idx → EReal) (ix2 d (j 1 : Fin 512))
      = (V c main_v2 : S4096x8192.Idx → EReal) (ix2 d (⟨t.val / 8 * 512 + (j 1).val, by omega⟩ : Fin 8192)) :=
    fun d => w1_block V c t d _ _ rfl
  have hw2 : ∀ d : Fin 4096, (Stage1.blockAt V c 3 t : S4096x512.Idx → EReal) (ix2 d (j 1 : Fin 512))
      = (V c main_v3 : S4096x8192.Idx → EReal) (ix2 d (⟨t.val / 8 * 512 + (j 1).val, by omega⟩ : Fin 8192)) :=
    fun d => w2_block V c t d _ _ rfl
  have hb1 : (Stage1.blockAt V c 2 t : S1x512.Idx → EReal) (ix2 (0 : Fin 1) (j 1 : Fin 512))
      = (V c main_v5 : S1x8192.Idx → EReal) (ix2 (0 : Fin 1) (⟨t.val / 8 * 512 + (j 1).val, by omega⟩ : Fin 8192)) :=
    b1_block V c t _ _ rfl
  have hb2 : (Stage1.blockAt V c 4 t : S1x512.Idx → EReal) (ix2 (0 : Fin 1) (j 1 : Fin 512))
      = (V c main_v6 : S1x8192.Idx → EReal) (ix2 (0 : Fin 1) (⟨t.val / 8 * 512 + (j 1).val, by omega⟩ : Fin 8192)) :=
    b2_block V c t _ _ rfl
  simp only [hzb, hw1, hw2, hb1, hb2]
  show _ = gatedArray V c (((cfg0.win 5).blk t).view.emb j)
  rw [hI]
  rfl

/-- An index of the output is in point t's block iff each coordinate is in the block's range on its axis. -/
theorem mem_block (t : Fin cfg0.N) (I : S8192x8192.Idx) :
    I ∈ ((cfg0.win 5).blk t).view.set ↔ ∀ a : Fin 2, win0_5.index t a * S1024x512.size a ≤ (I a).val
      ∧ (I a).val < win0_5.index t a * S1024x512.size a + S1024x512.size a := by
  show I ∈ ((View.whole main_v9).slice (win0_5.rect t)).set ↔ _
  rw [View.set_slice_whole, Rect.mem_set_unit]
  exact Iff.rfl

/-- Every entry (R, N) of the output lies in the block of the point (N / 512) * 8 + R / 1024. -/
theorem covered (I : S8192x8192.Idx) :
    ∃ t : Fin cfg0.N, (cfg0.win 5).flush t = true ∧ I ∈ ((cfg0.win 5).blk t).view.set := by
  have h0 : (I 0).val < 8192 := (I 0).isLt
  have h1 : (I 1).val < 8192 := (I 1).isLt
  have hN : cfg0.N = 128 := N_0
  let t : Fin cfg0.N := ⟨(I 1).val / 512 * 8 + (I 0).val / 1024, by rw [hN]; omega⟩
  have htv : t.val = (I 1).val / 512 * 8 + (I 0).val / 1024 := rfl
  obtain ⟨-, -, -, -, -, -, -, -, -, -, e0, e1⟩ := tiles t
  refine ⟨t, flush0_5 t, ?_⟩
  rw [mem_block]
  intro a
  match a with
  | ⟨0, _⟩ =>
    show win0_5.index t (0 : Fin 2) * 1024 ≤ (I 0).val ∧ (I 0).val < win0_5.index t (0 : Fin 2) * 1024 + 1024
    rw [e0, htv]; omega
  | ⟨1, _⟩ =>
    show win0_5.index t (1 : Fin 2) * 512 ≤ (I 1).val ∧ (I 1).val < win0_5.index t (1 : Fin 2) * 512 + 512
    rw [e1, htv]; omega

/-- The output array after the first region is the gated array of the region-entry contents. -/
theorem gated_array (V : (c : Dev nD) → (b : Ref sig .tc) → Buf (Elt Ideal) ((c : Thread nD τ).loc b)) (c : Dev nD) :
    (Cert.KernelIdeal.Stage1.dat (F := Ideal) V c).arrAt 5 cfg0.N
      = fun I : S8192x8192.Idx => gatedEntry (V c main_v1) (V c main_v2) (V c main_v5) (V c main_v3) (V c main_v6) (I 0) (I 1) :=
  (Stage1.dat (F := Ideal) V c).arrAt_eq_of_cover 5 (gatedArray V c) (fun t _ => flushed_eq V c t) covered

end Cert.KernelIdeal.Stage1Value

end
-- ==== Proof.LibTilePool.lean ====
/-
  Pooling a long axis tile by tile, on the extended reals (and, where cheaper, on any commutative monoid / any
  join-semilattice with a bottom).

  A sum (a supremum) over a*b positions is the sum (supremum) over the a tiles of the sum (supremum) over the b
  positions of each tile; an accumulator that starts at the first tile's value and adds (takes the maximum with) one
  further tile per step ends at the sum (supremum) over all tiles; twice an extended real is that number added to
  itself, so adding the same bias to two summands adds twice the bias to their sum; three float words.
-/
import Mathlib
import Idealize.ShloMosaic.PureOps.Ideal
import Idealize.ShloMosaic.PureOps.Ideal.Laws
import Idealize.ShloMosaic.Lib.IdealHost

noncomputable section

open scoped BigOperators

namespace Cert.TilePool

open Idealize.ShloMosaic

/-- Position l of tile k, of a tiles of b positions each, is a position below a*b. -/
theorem tile_lt {a b : ℕ} (k : Fin a) (l : Fin b) : k.val * b + l.val < a * b := by
  have hk : k.val + 1 ≤ a := k.isLt
  calc k.val * b + l.val < k.val * b + b := by have := l.isLt; omega
    _ = (k.val + 1) * b := by ring
    _ ≤ a * b := Nat.mul_le_mul_right b hk

/-- Position l of tile k, as an element of Fin (a*b). -/
def tilePos {a b : ℕ} (k : Fin a) (l : Fin b) : Fin (a * b) := ⟨k.val * b + l.val, tile_lt k l⟩

@[simp] theorem tilePos_val {a b : ℕ} (k : Fin a) (l : Fin b) : (tilePos k l).val = k.val * b + l.val := rfl

/-- Every position below a*b is position (s mod b) of tile (s div b). -/
theorem exists_tilePos {a b : ℕ} (s : Fin (a * b)) : ∃ (k : Fin a) (l : Fin b), tilePos k l = s := by
  have hb : 0 < b := by
    rcases Nat.eq_zero_or_pos b with h | h
    · exfalso
      have h1 : s.val < a * b := s.isLt
      have h2 : a * b = 0 := by rw [h, Nat.mul_zero]
      omega
    · exact h
  refine ⟨⟨s.val / b, ?_⟩, ⟨s.val % b, Nat.mod_lt _ hb⟩, ?_⟩
  · rw [Nat.div_lt_iff_lt_mul hb]; exact s.isLt
  · apply Fin.ext; simp only [tilePos_val]; exact Nat.div_add_mod' s.val b

/-- (1) A sum over a*b positions is the sum over the a tiles of the sum over each tile's b positions. -/
theorem sum_tiles {α : Type*} [AddCommMonoid α] (a b : ℕ) (f : Fin (a * b) → α) :
    ∑ s : Fin (a * b), f s = ∑ k : Fin a, ∑ l : Fin b, f (tilePos k l) := by
  rw [← Fintype.sum_prod_type', ← (finProdFinEquiv (m := a) (n := b)).sum_comp]
  apply Fintype.sum_congr
  rintro ⟨k, l⟩
  congr 1
  apply Fin.ext
  simp only [finProdFinEquiv_apply_val, tilePos_val]
  ring

/-- (2) A supremum over a*b positions is the supremum over the a tiles of the supremum over each tile's b positions. -/
theorem sup_tiles {α : Type*} [SemilatticeSup α] [OrderBot α] (a b : ℕ) (f : Fin (a * b) → α) :
    Finset.univ.sup f = Finset.univ.sup fun k : Fin a => Finset.univ.sup fun l : Fin b => f (tilePos k l) := by
  apply le_antisymm
  · apply Finset.sup_le
    intro s _
    obtain ⟨k, l, rfl⟩ := exists_tilePos s
    exact le_trans (Finset.le_sup (f := fun l : Fin b => f (tilePos k l)) (Finset.mem_univ l))
      (Finset.le_sup (f := fun k : Fin a => Finset.univ.sup fun l : Fin b => f (tilePos k l)) (Finset.mem_univ k))
  · apply Finset.sup_le
    intro k _
    apply Finset.sup_le
    intro l _
    exact Finset.le_sup (Finset.mem_univ _)

/-- (3, sums) An accumulator that starts at the first summand and adds one further summand per step ends at the sum
of all of them. -/
theorem acc_add_last {α : Type*} [AddCommMonoid α] : ∀ (n : ℕ) (g acc : Fin (n + 1) → α),
    acc 0 = g 0 → (∀ k : Fin n, acc k.succ = acc k.castSucc + g k.succ) → acc (Fin.last n) = ∑ k, g k
  | 0, g, acc, h0, _ => by
      rw [Fin.sum_univ_succ, Fin.sum_univ_zero, add_zero]
      exact h0
  | n + 1, g, acc, h0, hs => by
      have ih := acc_add_last n (fun k => g k.castSucc) (fun k => acc k.castSucc)
        (by show acc (Fin.castSucc 0) = g (Fin.castSucc 0); rw [Fin.castSucc_zero]; exact h0)
        (fun k => by
          show acc k.succ.castSucc = acc k.castSucc.castSucc + g k.succ.castSucc
          rw [← Fin.succ_castSucc]; exact hs k.castSucc)
      rw [Fin.sum_univ_castSucc, ← ih, ← Fin.succ_last, hs (Fin.last n)]

/-- (3, sums, from a starting value) An accumulator that starts at a0 and adds summand k at step k holds, after n
steps, a0 plus the first n summands. -/
theorem acc_add_range {α : Type*} [AddCommMonoid α] (a0 : α) (g acc : ℕ → α)
    (h0 : acc 0 = a0) (hs : ∀ k, acc (k + 1) = acc k + g k) (n : ℕ) :
    acc n = a0 + ∑ k ∈ Finset.range n, g k := by
  induction n with
  | zero => simpa using h0
  | succ n ih => rw [hs, ih, Finset.sum_range_succ, add_assoc]

/-- (3, maxima) An accumulator that starts at the first entry and takes the maximum with one further entry per step
ends at the supremum of all of them. -/
theorem acc_max_last {α : Type*} [SemilatticeSup α] [OrderBot α] (n : ℕ) (g acc : Fin (n + 1) → α)
    (h0 : acc 0 = g 0) (hs : ∀ k : Fin n, acc k.succ = acc k.castSucc ⊔ g k.succ) :
    acc (Fin.last n) = Finset.univ.sup g := by
  have hle : ∀ j : Fin (n + 1), acc j ≤ Finset.univ.sup g := by
    intro j
    induction j using Fin.induction with
    | zero => rw [h0]; exact Finset.le_sup (Finset.mem_univ _)
    | succ k ih => rw [hs]; exact sup_le ih (Finset.le_sup (Finset.mem_univ _))
  have hge : ∀ j k : Fin (n + 1), k ≤ j → g k ≤ acc j := by
    intro j
    induction j using Fin.induction with
    | zero =>
        intro k hk
        have : k = 0 := Fin.le_zero_iff.mp hk
        rw [this, h0]
    | succ i ih =>
        intro k hk
        rw [hs]
        rcases eq_or_lt_of_le hk with h | h
        · rw [h]; exact le_sup_right
        · exact le_trans (ih k (Fin.le_castSucc_iff.mpr h)) le_sup_left
  apply le_antisymm (hle _)
  apply Finset.sup_le
  intro k _
  exact hge _ k (Fin.le_last k)

/-- (3, eight summands) The left-nested sum of eight terms is their sum. -/
theorem add8_eq_sum {α : Type*} [AddCommMonoid α] (g : Fin 8 → α) :
    ((((((g 0 + g 1) + g 2) + g 3) + g 4) + g 5) + g 6) + g 7 = ∑ k, g k := by
  rw [Fin.sum_univ_eight]

/-- (3, eight entries) The left-nested maximum of eight entries is their supremum. -/
theorem max8_eq_sup {α : Type*} [LinearOrder α] [OrderBot α] (g : Fin 8 → α) :
    max (max (max (max (max (max (max (g 0) (g 1)) (g 2)) (g 3)) (g 4)) (g 5)) (g 6)) (g 7) = Finset.univ.sup g := by
  apply le_antisymm
  · refine max_le (max_le (max_le (max_le (max_le (max_le (max_le ?_ ?_) ?_) ?_) ?_) ?_) ?_) ?_ <;>
      exact Finset.le_sup (Finset.mem_univ _)
  · apply Finset.sup_le
    intro k _
    fin_cases k <;> simp [le_max_iff]

/-- (4) Twice an extended real is that number added to itself (also at the two infinities). -/
theorem two_mul_ereal (x : EReal) : (2 : EReal) * x = x + x := by
  induction x using EReal.rec with
  | bot => rw [EReal.mul_bot_of_pos (by norm_num)]; rfl
  | top => rw [EReal.mul_top_of_pos (by norm_num)]; rfl
  | coe r =>
      have h2 : (2 : EReal) = ((2 : ℝ) : EReal) := rfl
      rw [h2, ← EReal.coe_mul, ← EReal.coe_add, two_mul]

/-- (4) Adding the same number to two summands adds twice that number to their sum. -/
theorem add_bias_twice (A B x : EReal) : (A + x) + (B + x) = (A + B) + 2 * x := by
  rw [two_mul_ereal, add_add_add_comm]

/-- The f32 word 0x40000000 is 2. -/
theorem ofBits_two_f32 : Ideal.ofBits .f32 0x40000000#32 = (2 : EReal) := by
  rw [show (2 : EReal) = ((2 : ℝ) : EReal) from rfl]
  simp [Ideal.ofBits, Ideal.ieee, -EReal.coe_mul]; norm_num

/-- The f32 word 0x3F800000 is 1. -/
theorem ofBits_one_f32' : Ideal.ofBits .f32 0x3F800000#32 = (1 : EReal) := Ideal.ofBits_one_f32

/-- The f32 word 0x00000000 is 0. -/
theorem ofBits_zero_f32' : Ideal.ofBits .f32 0x00000000#32 = (0 : EReal) := Ideal.ofBits_zero_f32

end Cert.TilePool

end
-- ==== Proof.KI.Stage2Value.lean ====
/-
  The second kernel region's output array as one function of the arrays the region finds.

  Grid point t of the 8 × 4 × 8 grid, in row-major order t = (4 i + o) · 8 + k, reads the 1024 × 1024 block
  (i, k) of the gated array, the block (k, o) of W3, the 1024 entries o of the bias and scale rows, and at k = 7 writes
  block (i, o) of the output. With q = 4 i + o fixed, the accumulator after the point k is the sum over the tiles
  k' ≤ k of the tile's 1024 products; after k = 7 it is the whole sum over the 8192 gated features, because a sum over
  8 · 1024 positions is the sum over the tiles of the sums over each tile. The finished block is then the
  normalisation of that sum plus the bias, and the blocks written at the 32 points with k = 7 tile the output.
-/
import proofs.«158177_j59167469470253_2_alg».proof.Proof.KI.Stage2Data
import proofs.«158177_j59167469470253_2_alg».proof.Proof.KI.Payloads
import proofs.«158177_j59167469470253_2_alg».proof.Proof.LibTilePool
import Idealize.ShloMosaic.Lib.ValueIdx
import Idealize.ShloMosaic.Lib.Pipeline.Value
import Idealize.ShloMosaic.PureOps.Ideal.Laws

set_option maxRecDepth 16384

noncomputable section

namespace Cert.KernelIdeal.Stage2Value

open Cert.KernelIdeal Cert.KernelIdeal.Gen
open Idealize.ShloMosaic Idealize.ShloMosaic.TcCoe Idealize.ShloMosaic.ValueIdx Idealize.SL.Sem
open Idealize.ShloMosaic.Pipeline (Dat)
open Cert.TilePool Cert.KernelIdeal.Payloads

/-! ## Pure statements: one tile's products, the prefix sums, the finished entry -/

/-- The 1024 products of tile k of the contraction, for row R of the gated array and column O of W3. -/
def tileTerm (g : (⟨2, ![8192, 8192]⟩ : Shape).Idx → EReal) (w3 : (⟨2, ![8192, 4096]⟩ : Shape).Idx → EReal)
    (R : Fin 8192) (O : Fin 4096) (k : Fin 8) : EReal :=
  ∑ j : Fin 1024, g (ix2 R (tilePos k j)) * w3 (ix2 (tilePos k j) O)

/-- The same for any natural number, zero past the eight tiles. -/
def tileTermN (g : (⟨2, ![8192, 8192]⟩ : Shape).Idx → EReal) (w3 : (⟨2, ![8192, 4096]⟩ : Shape).Idx → EReal)
    (R : Fin 8192) (O : Fin 4096) (k : ℕ) : EReal :=
  if h : k < 8 then tileTerm g w3 R O ⟨k, h⟩ else 0

/-- The third layer's product for row R and output feature O: the sum over all 8192 gated features. -/
def projEntry (g : (⟨2, ![8192, 8192]⟩ : Shape).Idx → EReal) (w3 : (⟨2, ![8192, 4096]⟩ : Shape).Idx → EReal)
    (R : Fin 8192) (O : Fin 4096) : EReal :=
  ∑ n : Fin 8192, g (ix2 R n) * w3 (ix2 n O)

/-- All eight tiles together are the whole contraction. -/
theorem tiles_all (g : (⟨2, ![8192, 8192]⟩ : Shape).Idx → EReal) (w3 : (⟨2, ![8192, 4096]⟩ : Shape).Idx → EReal)
    (R : Fin 8192) (O : Fin 4096) :
    ∑ k ∈ Finset.range 8, tileTermN g w3 R O k = projEntry g w3 R O := by
  rw [Finset.sum_range]
  unfold projEntry
  rw [show (∑ n : Fin 8192, g (ix2 R n) * w3 (ix2 n O)) = ∑ n : Fin (8 * 1024), g (ix2 R n) * w3 (ix2 n O) from rfl,
    sum_tiles 8 1024]
  refine Finset.sum_congr rfl fun k _ => ?_
  unfold tileTermN
  rw [dif_pos k.isLt]
  rfl

/-- One step of the accumulation at an entry, when the point's two blocks are tile k of row R and of column O. -/
theorem acc_step (a : FVec Ideal S1024x1024 .f32) (x0 x1 : FVec Ideal S1024x1024 .bf16)
    (g : (⟨2, ![8192, 8192]⟩ : Shape).Idx → EReal) (w3 : (⟨2, ![8192, 4096]⟩ : Shape).Idx → EReal)
    (R : Fin 8192) (O : Fin 4096) (k : Fin 8) (r o : Fin 1024)
    (h0 : ∀ j : Fin 1024, x0 (ix2 r j) = g (ix2 R (tilePos k j)))
    (h1 : ∀ j : Fin 1024, x1 (ix2 j o) = w3 (ix2 (tilePos k j) O)) :
    k1_pay2 (F := Ideal) a x0 x1 (ix2 r o) = a (ix2 r o) + tileTerm g w3 R O k := by
  rw [accumulated_apply]
  unfold tileTerm
  refine congrArg (a (ix2 r o) + ·) (Finset.sum_congr rfl fun j _ => ?_)
  rw [h0 j, h1 j]

/-- The bias row added, along a row of the output. -/
def biasedRow (g : (⟨2, ![8192, 8192]⟩ : Shape).Idx → EReal) (w3 : (⟨2, ![8192, 4096]⟩ : Shape).Idx → EReal)
    (b3 : (⟨2, ![1, 4096]⟩ : Shape).Idx → EReal) (R : Fin 8192) : Fin 4096 → EReal :=
  fun O => projEntry g w3 R O + b3 (ix2 (0 : Fin 1) O)

/-- An entry of the output: the biased product over the root of its group's mean square plus the constant, times the scale. -/
def outEntry (g : (⟨2, ![8192, 8192]⟩ : Shape).Idx → EReal) (w3 : (⟨2, ![8192, 4096]⟩ : Shape).Idx → EReal)
    (b3 gm : (⟨2, ![1, 4096]⟩ : Shape).Idx → EReal) (R : Fin 8192) (O : Fin 4096) : EReal :=
  Ideal.div (biasedRow g w3 b3 R O)
    (Ideal.sqrt (Ideal.div (∑ l : Fin 128, biasedRow g w3 b3 R ⟨O.val / 128 * 128 + l.val, by omega⟩
        * biasedRow g w3 b3 R ⟨O.val / 128 * 128 + l.val, by omega⟩) (Ideal.ofBits .f32 0x43000000#32)
      + Ideal.ofBits .f32 0x358637BD#32)) * gm (ix2 (0 : Fin 1) O)

/-- The finished block at an entry, when the accumulator holds the whole contraction for row R along column tile cT
    and the two rows are that tile of the bias and of the scale. -/
theorem finished_entry (a : FVec Ideal S1024x1024 .f32) (x2 x3 : FVec Ideal S1x1024 .f32)
    (g : (⟨2, ![8192, 8192]⟩ : Shape).Idx → EReal) (w3 : (⟨2, ![8192, 4096]⟩ : Shape).Idx → EReal)
    (b3 gm : (⟨2, ![1, 4096]⟩ : Shape).Idx → EReal) (R : Fin 8192) (cT : Fin 4) (r o : Fin 1024)
    (ha : ∀ o' : Fin 1024, a (ix2 r o') = projEntry g w3 R (tilePos cT o'))
    (h2 : ∀ o' : Fin 1024, x2 (ix2 (0 : Fin 1) o') = b3 (ix2 (0 : Fin 1) (tilePos cT o')))
    (h3 : x3 (ix2 (0 : Fin 1) o) = gm (ix2 (0 : Fin 1) (tilePos cT o))) :
    k1_pay3 (F := Ideal) a x2 x3 (ix2 r o) = outEntry g w3 b3 gm R (tilePos cT o) := by
  have hb : ∀ o' : Fin 1024, biased a x2 r o' = biasedRow g w3 b3 R (tilePos cT o') := fun o' => by
    unfold biased biasedRow; rw [ha, h2]
  rw [finished_apply]
  unfold outEntry
  rw [hb o, h3]
  have hs : (∑ l : Fin 128, biased a x2 r ⟨o.val / 128 * 128 + l.val, by omega⟩ * biased a x2 r ⟨o.val / 128 * 128 + l.val, by omega⟩)
      = ∑ l : Fin 128, biasedRow g w3 b3 R ⟨(tilePos cT o).val / 128 * 128 + l.val, by have := (tilePos cT o).isLt; omega⟩
          * biasedRow g w3 b3 R ⟨(tilePos cT o).val / 128 * 128 + l.val, by have := (tilePos cT o).isLt; omega⟩ :=
    Finset.sum_congr rfl fun l _ => by
      have e : (tilePos cT (⟨o.val / 128 * 128 + l.val, by omega⟩ : Fin 1024) : Fin (4 * 1024))
          = ⟨(tilePos cT o).val / 128 * 128 + l.val, by have := (tilePos cT o).isLt; omega⟩ :=
        Fin.ext (by simp only [tilePos_val]; omega)
      rw [hb, e]
  rw [hs]

/-! ## The grid's index maps, and the blocks as tiles of the arrays -/

variable (V : (c : Dev nD) → (b : Ref sig .tc) → Buf (Elt Ideal) ((c : Thread nD τ).loc b))

/-- Point t = (4 i + o) · 8 + k reads row tile i and contraction tile k of the gated array, contraction tile k and
    column tile o of W3, column tile o of the two rows, and writes row tile i, column tile o of the output. -/
theorem tiles : ∀ t : Fin cfg1.N,
    win1_0.index t (0 : Fin 2) = t.val / 32 ∧ win1_0.index t (1 : Fin 2) = t.val % 8
    ∧ win1_1.index t (0 : Fin 2) = t.val % 8 ∧ win1_1.index t (1 : Fin 2) = t.val / 8 % 4
    ∧ win1_2.index t (0 : Fin 2) = 0 ∧ win1_2.index t (1 : Fin 2) = t.val / 8 % 4
    ∧ win1_3.index t (0 : Fin 2) = 0 ∧ win1_3.index t (1 : Fin 2) = t.val / 8 % 4
    ∧ win1_4.index t (0 : Fin 2) = t.val / 32 ∧ win1_4.index t (1 : Fin 2) = t.val / 8 % 4 :=
  (by decide +kernel : ∀ t : Fin grid1.N, _)

theorem lt_points (t : Fin cfg1.N) : t.val < 256 := lt_of_lt_of_eq t.isLt N_1
def rowTile (t : Fin cfg1.N) : Fin 8 := ⟨t.val / 32, by have := lt_points t; omega⟩
def kTile (t : Fin cfg1.N) : Fin 8 := ⟨t.val % 8, by omega⟩
def colTile (t : Fin cfg1.N) : Fin 4 := ⟨t.val / 8 % 4, by omega⟩

theorem gated_block (c : Dev nD) (t : Fin cfg1.N) (r j : Fin 1024) :
    Stage2.blockAt V c 0 t (ix2 r j) = V c main_v9 (ix2 (tilePos (rowTile t) r) (tilePos (kTile t) j)) := by
  obtain ⟨e0, e1, -⟩ := tiles t
  show V c main_v9 (((cfg1.win 0).blk t).view.emb (ix2 r j)) = _
  refine congrArg (V c main_v9) ?_
  funext a; apply Fin.ext
  match a with
  | ⟨0, _⟩ => show win1_0.index t (0 : Fin 2) * 1024 + 1 * r.val = t.val / 32 * 1024 + r.val; omega
  | ⟨1, _⟩ => show win1_0.index t (1 : Fin 2) * 1024 + 1 * j.val = t.val % 8 * 1024 + j.val; omega

theorem w3_block (c : Dev nD) (t : Fin cfg1.N) (j o : Fin 1024) :
    Stage2.blockAt V c 1 t (ix2 j o) = V c main_v4 (ix2 (tilePos (kTile t) j) (tilePos (colTile t) o)) := by
  obtain ⟨-, -, e2, e3, -⟩ := tiles t
  show V c main_v4 (((cfg1.win 1).blk t).view.emb (ix2 j o)) = _
  refine congrArg (V c main_v4) ?_
  funext a; apply Fin.ext
  match a with
  | ⟨0, _⟩ => show win1_1.index t (0 : Fin 2) * 1024 + 1 * j.val = t.val % 8 * 1024 + j.val; omega
  | ⟨1, _⟩ => show win1_1.index t (1 : Fin 2) * 1024 + 1 * o.val = t.val / 8 % 4 * 1024 + o.val; omega

theorem bias_block (c : Dev nD) (t : Fin cfg1.N) (o : Fin 1024) :
    Stage2.blockAt V c 2 t (ix2 (0 : Fin 1) o) = V c main_v7 (ix2 (0 : Fin 1) (tilePos (colTile t) o)) := by
  obtain ⟨-, -, -, -, e4, e5, -⟩ := tiles t
  show V c main_v7 (((cfg1.win 2).blk t).view.emb (ix2 (0 : Fin 1) o)) = _
  refine congrArg (V c main_v7) ?_
  funext a; apply Fin.ext
  match a with
  | ⟨0, _⟩ => show win1_2.index t (0 : Fin 2) * 1 + 1 * 0 = 0; omega
  | ⟨1, _⟩ => show win1_2.index t (1 : Fin 2) * 1024 + 1 * o.val = t.val / 8 % 4 * 1024 + o.val; omega

theorem scale_block (c : Dev nD) (t : Fin cfg1.N) (o : Fin 1024) :
    Stage2.blockAt V c 3 t (ix2 (0 : Fin 1) o) = V c main_v8 (ix2 (0 : Fin 1) (tilePos (colTile t) o)) := by
  obtain ⟨-, -, -, -, -, -, e6, e7, -⟩ := tiles t
  show V c main_v8 (((cfg1.win 3).blk t).view.emb (ix2 (0 : Fin 1) o)) = _
  refine congrArg (V c main_v8) ?_
  funext a; apply Fin.ext
  match a with
  | ⟨0, _⟩ => show win1_3.index t (0 : Fin 2) * 1 + 1 * 0 = 0; omega
  | ⟨1, _⟩ => show win1_3.index t (1 : Fin 2) * 1024 + 1 * o.val = t.val / 8 % 4 * 1024 + o.val; omega

/-! ## The accumulator is a prefix sum of tile terms -/

theorem acc_entry (c : Dev nD) (r o : Fin 1024) : ∀ (k : ℕ) (t : Fin cfg1.N), t.val % 8 = k →
    Stage2.accAt V c t.val t.isLt (ix2 r o)
      = ∑ k' ∈ Finset.range (k + 1), tileTermN (V c main_v9) (V c main_v4) (tilePos (rowTile t) r) (tilePos (colTile t) o) k'
  | 0, t, ht => by
    rw [Stage2.accAt_first V c t ht]
    refine (acc_step _ (Stage2.blockAt V c 0 t) (Stage2.blockAt V c 1 t) (V c main_v9) (V c main_v4)
      (tilePos (rowTile t) r) (tilePos (colTile t) o) (kTile t) r o
      (fun j => gated_block V c t r j) (fun j => w3_block V c t j o)).trans ?_
    rw [show (Stage2.zeroFill (F := Ideal)) (ix2 r o) = 0 from zero_apply r o, zero_add, Finset.sum_range_one]
    unfold tileTermN; rw [dif_pos (by norm_num)]
    exact congrArg (tileTerm _ _ _ _) (Fin.ext ht)
  | k + 1, t, ht => by
    have hne : ¬ t.val % 8 = 0 := by omega
    have ih := acc_entry c r o k ⟨t.val - 1, Nat.lt_of_le_of_lt (Nat.sub_le _ _) t.isLt⟩ (by show (t.val - 1) % 8 = k; omega)
    have hr : rowTile ⟨t.val - 1, Nat.lt_of_le_of_lt (Nat.sub_le _ _) t.isLt⟩ = rowTile t :=
      Fin.ext (by show (t.val - 1) / 32 = t.val / 32; omega)
    have hc : colTile ⟨t.val - 1, Nat.lt_of_le_of_lt (Nat.sub_le _ _) t.isLt⟩ = colTile t :=
      Fin.ext (by show (t.val - 1) / 8 % 4 = t.val / 8 % 4; omega)
    rw [hr, hc] at ih
    rw [Stage2.accAt_next V c t hne]
    refine (acc_step _ (Stage2.blockAt V c 0 t) (Stage2.blockAt V c 1 t) (V c main_v9) (V c main_v4)
      (tilePos (rowTile t) r) (tilePos (colTile t) o) (kTile t) r o
      (fun j => gated_block V c t r j) (fun j => w3_block V c t j o)).trans ?_
    rw [Finset.sum_range_succ]
    refine congrArg₂ (· + ·) ih ?_
    unfold tileTermN; rw [dif_pos (by omega)]
    exact congrArg (tileTerm _ _ _ _) (Fin.ext ht)

/-! ## What the region leaves in its output array -/

/-- The output array as one function of the four arrays the region reads. -/
def outArray (c : Dev nD) : S8192x4096.Idx → EReal :=
  fun I => outEntry (V c main_v9) (V c main_v4) (V c main_v7) (V c main_v8) (I 0) (I 1)

/-- What a point with k = 7 writes back is its block of that function. -/
theorem flushed_eq (c : Dev nD) (t : Fin cfg1.N) (hf : (cfg1.win 4).flush t = true) :
    (Stage2.dat (F := Ideal) V c).flushed 4 t = ((cfg1.win 4).blk t).view.read (Elt Ideal) (outArray V c) := by
  have h7 : t.val % 8 = 7 := (flush1_4 t).mp hf
  obtain ⟨-, -, -, -, -, -, -, -, e8, e9⟩ := tiles t
  show (cfg1.win 4).cut (grid1.coords t) ((Stage2.dat V c).after 4 t) = _
  rw [Stage2.after_4]
  funext y
  obtain ⟨r, o, rfl⟩ : ∃ (r o : Fin 1024), y = ix2 r o := ⟨y 0, y 1, eq_ix2 y⟩
  show k1_pay3 (F := Ideal) (Stage2.accAt V c t.val t.isLt) (Stage2.blockAt V c 2 t) (Stage2.blockAt V c 3 t) (ix2 r o)
    = outArray V c (((cfg1.win 4).blk t).view.emb (ix2 r o))
  refine (finished_entry _ (Stage2.blockAt V c 2 t) (Stage2.blockAt V c 3 t) (V c main_v9) (V c main_v4) (V c main_v7) (V c main_v8)
    (tilePos (rowTile t) r) (colTile t) r o (fun o' => ?_) (fun o' => bias_block V c t o') (scale_block V c t o)).trans ?_
  · rw [acc_entry V c r o' 7 t h7, tiles_all]
  · have e0 : ((((cfg1.win 4).blk t).view.emb (ix2 r o)) 0 : Fin 8192) = tilePos (rowTile t) r :=
      Fin.ext (by show win1_4.index t (0 : Fin 2) * 1024 + 1 * r.val = t.val / 32 * 1024 + r.val; omega)
    have e1 : ((((cfg1.win 4).blk t).view.emb (ix2 r o)) 1 : Fin 4096) = tilePos (colTile t) o :=
      Fin.ext (by show win1_4.index t (1 : Fin 2) * 1024 + 1 * o.val = t.val / 8 % 4 * 1024 + o.val; omega)
    show outEntry _ _ _ _ _ _ = outEntry _ _ _ _ ((((cfg1.win 4).blk t).view.emb (ix2 r o)) 0) ((((cfg1.win 4).blk t).view.emb (ix2 r o)) 1)
    rw [e0, e1]

/-- An index of the output is in point t's block iff each coordinate is in the block's range on its axis. -/
theorem mem_block (t : Fin cfg1.N) (I : S8192x4096.Idx) :
    I ∈ ((cfg1.win 4).blk t).view.set ↔ ∀ a : Fin 2, win1_4.index t a * S1024x1024.size a ≤ (I a).val ∧ (I a).val < win1_4.index t a * S1024x1024.size a + S1024x1024.size a := by
  show I ∈ ((View.whole main_v10).slice (win1_4.rect t)).set ↔ _
  rw [View.set_slice_whole, Rect.mem_set_unit]
  exact Iff.rfl

/-- Every index of the output is in the block of a point that writes back: the one with its row tile, its column tile and k = 7. -/
theorem covered (I : S8192x4096.Idx) :
    ∃ t : Fin cfg1.N, (cfg1.win 4).flush t = true ∧ I ∈ ((cfg1.win 4).blk t).view.set := by
  have h0 : (I 0).val < 8192 := (I 0).isLt
  have h1 : (I 1).val < 4096 := (I 1).isLt
  have hlt : ((I 0).val / 1024 * 4 + (I 1).val / 1024) * 8 + 7 < cfg1.N := by
    rw [show cfg1.N = 256 from N_1]; omega
  obtain ⟨-, -, -, -, -, -, -, -, e8, e9⟩ := tiles ⟨((I 0).val / 1024 * 4 + (I 1).val / 1024) * 8 + 7, hlt⟩
  refine ⟨⟨((I 0).val / 1024 * 4 + (I 1).val / 1024) * 8 + 7, hlt⟩, (flush1_4 _).mpr (by show (((I 0).val / 1024 * 4 + (I 1).val / 1024) * 8 + 7) % 8 = 7; omega), ?_⟩
  rw [mem_block]
  intro a
  match a with
  | ⟨0, _⟩ =>
    show win1_4.index _ (0 : Fin 2) * 1024 ≤ (I 0).val ∧ (I 0).val < win1_4.index _ (0 : Fin 2) * 1024 + 1024
    rw [e8]; show (((I 0).val / 1024 * 4 + (I 1).val / 1024) * 8 + 7) / 32 * 1024 ≤ (I 0).val ∧ (I 0).val < (((I 0).val / 1024 * 4 + (I 1).val / 1024) * 8 + 7) / 32 * 1024 + 1024
    omega
  | ⟨1, _⟩ =>
    show win1_4.index _ (1 : Fin 2) * 1024 ≤ (I 1).val ∧ (I 1).val < win1_4.index _ (1 : Fin 2) * 1024 + 1024
    rw [e9]; show (((I 0).val / 1024 * 4 + (I 1).val / 1024) * 8 + 7) / 8 % 4 * 1024 ≤ (I 1).val ∧ (I 1).val < (((I 0).val / 1024 * 4 + (I 1).val / 1024) * 8 + 7) / 8 % 4 * 1024 + 1024
    omega

/-- After the region the output array holds that function everywhere. -/
theorem out_array (c : Dev nD) : (Stage2.dat (F := Ideal) V c).arrAt 4 cfg1.N = outArray V c :=
  (Stage2.dat (F := Ideal) V c).arrAt_eq_of_cover 4 (outArray V c) (fun t hf => flushed_eq V c t hf) (covered)

end Cert.KernelIdeal.Stage2Value

end
-- ==== Proof.KI.Boundary.lean ====
/-
  The buffers at the kernel regions' boundaries, read back to the arguments.

  Before the first region the host lays z out as a matrix of 8192 rows (row 2048 p + s is row (p, s) of z),
  changes the float format of z and of the three weight matrices — which changes no value here — and
  lays each bias and the scale out as a matrix of one row. The first region writes only its own output
  array, so the third weight matrix, the third bias and the scale reach the second region as the host
  left them. After the second region the host views its 8192-row output as rows (p, s) again.
-/
import proofs.«158177_j59167469470253_2_alg».proof.Proof.KI.Run
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- W1 as the region finds it is the argument W1: a change of format only. -/
theorem w1_entry : (Whole.V1 (F := Ideal) m ρ c main_v2 : S4096x8192.Idx → EReal) = m ((c : Thread nD τ).loc main_arg1) := by
  show StableHlo.after hostOps0 (Whole.W0 m ρ c) (Proc.devRef .tc main_v2) = _
  after_results
  rfl

/-- W2 likewise. -/
theorem w2_entry : (Whole.V1 (F := Ideal) m ρ c main_v3 : S4096x8192.Idx → EReal) = m ((c : Thread nD τ).loc main_arg3) := by
  show StableHlo.after hostOps0 (Whole.W0 m ρ c) (Proc.devRef .tc main_v3) = _
  after_results
  rfl

/-- W3 likewise. -/
theorem w3_entry : (Whole.V1 (F := Ideal) m ρ c main_v4 : S8192x4096.Idx → EReal) = m ((c : Thread nD τ).loc main_arg5) := by
  show StableHlo.after hostOps0 (Whole.W0 m ρ c) (Proc.devRef .tc main_v4) = _
  after_results
  rfl

/-- Row 2048 p + s of the matrix the first region reads is row (p, s) of z. -/
theorem rows_entry (p : Fin 4) (s : Fin 2048) (d : Fin 4096) :
    (Whole.V1 (F := Ideal) m ρ c main_v1 : S8192x4096.Idx → EReal) (ix2 (⟨p.val * 2048 + s.val, by omega⟩ : Fin 8192) d)
      = (m ((c : Thread nD τ).loc main_arg0) : S4x2048x4096.Idx → EReal) (ix3 p s d) := by
  have e : (Whole.V1 (F := Ideal) m ρ c main_v1 : S8192x4096.Idx → EReal)
      = shapeCast S8192x4096 (m ((c : Thread nD τ).loc main_arg0) : S4x2048x4096.Idx → EReal) shapeCasts_S4x2048x4096_S8192x4096 := by
    show StableHlo.after hostOps0 (Whole.W0 m ρ c) (Proc.devRef .tc main_v1) = _
    after_results
    rfl
  rw [e]
  exact shapeCast_apply _ _ (ix2 (⟨p.val * 2048 + s.val, by omega⟩ : Fin 8192) d) (ix3 p s d) (by
    rewrite [Shape.rowMajor_val_three, Shape.rowMajor_val_two]
    show (p.val * 2048 + s.val) * 4096 + d.val = (p.val * 2048 + s.val) * 4096 + d.val
    rfl)

/-- The one-row matrix of b1 holds b1. -/
theorem b1_entry (n : Fin 8192) :
    (Whole.V1 (F := Ideal) m ρ c main_v5 : S1x8192.Idx → EReal) (ix2 (0 : Fin 1) n) = (m ((c : Thread nD τ).loc main_arg2) : S8192.Idx → EReal) (ix1 n) := by
  have e : (Whole.V1 (F := Ideal) m ρ c main_v5 : S1x8192.Idx → EReal)
      = shapeCast S1x8192 (m ((c : Thread nD τ).loc main_arg2) : S8192.Idx → EReal) shapeCasts_S8192_S1x8192 := by
    show StableHlo.after hostOps0 (Whole.W0 m ρ c) (Proc.devRef .tc main_v5) = _
    after_results
    rfl
  rw [e]
  exact shapeCast_apply _ _ (ix2 (0 : Fin 1) n) (ix1 n) (by
    rewrite [Shape.rowMajor_val_one, Shape.rowMajor_val_two]
    show n.val = 0 * 8192 + n.val
    omega)

/-- The one-row matrix of b2 holds b2. -/
theorem b2_entry (n : Fin 8192) :
    (Whole.V1 (F := Ideal) m ρ c main_v6 : S1x8192.Idx → EReal) (ix2 (0 : Fin 1) n) = (m ((c : Thread nD τ).loc main_arg4) : S8192.Idx → EReal) (ix1 n) := by
  have e : (Whole.V1 (F := Ideal) m ρ c main_v6 : S1x8192.Idx → EReal)
      = shapeCast S1x8192 (m ((c : Thread nD τ).loc main_arg4) : S8192.Idx → EReal) shapeCasts_S8192_S1x8192 := by
    show StableHlo.after hostOps0 (Whole.W0 m ρ c) (Proc.devRef .tc main_v6) = _
    after_results
    rfl
  rw [e]
  exact shapeCast_apply _ _ (ix2 (0 : Fin 1) n) (ix1 n) (by
    rewrite [Shape.rowMajor_val_one, Shape.rowMajor_val_two]
    show n.val = 0 * 8192 + n.val
    omega)

/-- The one-row matrix of b3 holds b3. -/
theorem b3_entry (n : Fin 4096) :
    (Whole.V1 (F := Ideal) m ρ c main_v7 : S1x4096.Idx → EReal) (ix2 (0 : Fin 1) n) = (m ((c : Thread nD τ).loc main_arg6) : S4096.Idx → EReal) (ix1 n) := by
  have e : (Whole.V1 (F := Ideal) m ρ c main_v7 : S1x4096.Idx → EReal)
      = shapeCast S1x4096 (m ((c : Thread nD τ).loc main_arg6) : S4096.Idx → EReal) shapeCasts_S4096_S1x4096 := by
    show StableHlo.after hostOps0 (Whole.W0 m ρ c) (Proc.devRef .tc main_v7) = _
    after_results
    rfl
  rw [e]
  exact shapeCast_apply _ _ (ix2 (0 : Fin 1) n) (ix1 n) (by
    rewrite [Shape.rowMajor_val_one, Shape.rowMajor_val_two]
    show n.val = 0 * 4096 + n.val
    omega)

/-- The one-row matrix of the scale holds the scale. -/
theorem scale_entry (n : Fin 4096) :
    (Whole.V1 (F := Ideal) m ρ c main_v8 : S1x4096.Idx → EReal) (ix2 (0 : Fin 1) n) = (m ((c : Thread nD τ).loc main_arg7) : S4096.Idx → EReal) (ix1 n) := by
  have e : (Whole.V1 (F := Ideal) m ρ c main_v8 : S1x4096.Idx → EReal)
      = shapeCast S1x4096 (m ((c : Thread nD τ).loc main_arg7) : S4096.Idx → EReal) shapeCasts_S4096_S1x4096 := by
    show StableHlo.after hostOps0 (Whole.W0 m ρ c) (Proc.devRef .tc main_v8) = _
    after_results
    rfl
  rw [e]
  exact shapeCast_apply _ _ (ix2 (0 : Fin 1) n) (ix1 n) (by
    rewrite [Shape.rowMajor_val_one, Shape.rowMajor_val_two]
    show n.val = 0 * 4096 + n.val
    omega)

/-- The first region leaves the third weight matrix as the host left it. -/
theorem kept_w3 : Whole.V2 (F := Ideal) m ρ c main_v4 = Whole.V1 (F := Ideal) m ρ c main_v4 :=
  Whole.W2_of_ne m ρ c main_v4 (by decide)
/-- And the third bias. -/
theorem kept_b3 : Whole.V2 (F := Ideal) m ρ c main_v7 = Whole.V1 (F := Ideal) m ρ c main_v7 :=
  Whole.W2_of_ne m ρ c main_v7 (by decide)
/-- And the scale. -/
theorem kept_scale : Whole.V2 (F := Ideal) m ρ c main_v8 = Whole.V1 (F := Ideal) m ρ c main_v8 :=
  Whole.W2_of_ne m ρ c main_v8 (by decide)

/-- Row (p, s) of the result is row 2048 p + s of the second region's output. -/
theorem result_entry (p : Fin 4) (s : Fin 2048) (o : Fin 4096) :
    (Whole.W4 (F := Ideal) m ρ c (Proc.devRef .tc main_v11) : S4x2048x4096.Idx → EReal) (ix3 p s o)
      = (Whole.W3 (F := Ideal) m ρ c (Proc.devRef .tc main_v10) : S8192x4096.Idx → EReal) (ix2 (⟨p.val * 2048 + s.val, by omega⟩ : Fin 8192) o) := by
  have e : (Whole.W4 (F := Ideal) m ρ c (Proc.devRef .tc main_v11) : S4x2048x4096.Idx → EReal)
      = shapeCast S4x2048x4096 (Whole.W3 (F := Ideal) m ρ c (Proc.devRef .tc main_v10) : S8192x4096.Idx → EReal) shapeCasts_S8192x4096_S4x2048x4096 := by
    show StableHlo.after hostOps2 (Whole.W3 m ρ c) (Proc.devRef .tc main_v11) = _
    after_results
    rfl
  rw [e]
  exact shapeCast_apply _ _ (ix3 p s o) (ix2 (⟨p.val * 2048 + s.val, by omega⟩ : Fin 8192) o) (by
    rewrite [Shape.rowMajor_val_three, Shape.rowMajor_val_two]
    show (p.val * 2048 + s.val) * 4096 + o.val = (p.val * 2048 + s.val) * 4096 + o.val
    rfl)

end Cert.KernelIdeal.Boundary

end
-- ==== Proof.GatedNormSpec.lean ====
/-
  The function both programs compute, index by index on the extended reals.

  A row is a pair (p, s) of a batch and a position; z has 4096 features per row.
  Two affine layers of width 8192 (weights W1, W2; biases b1, b2) give a gate and a content;
  the gated value is content times the logistic of the gate. A third affine layer (W3, b3)
  maps the 8192 gated features to 4096; these split into 32 groups of 128 consecutive
  features, and each feature is divided by the square root of its group's mean square plus
  a small constant, then scaled by gamma.
-/
import Idealize.ShloMosaic.PureOps.Ideal
import Idealize.ShloMosaic.Lib.ValueIdx

noncomputable section

namespace Cert.GatedNorm

open Idealize.ShloMosaic Idealize.ShloMosaic.ValueIdx

/-- An affine layer from 4096 to 8192 features at row (p, s), output feature n. -/
def affine (z : (⟨3, ![4, 2048, 4096]⟩ : Shape).Idx → EReal) (W : (⟨2, ![4096, 8192]⟩ : Shape).Idx → EReal)
    (b : (⟨1, ![8192]⟩ : Shape).Idx → EReal) (p : Fin 4) (s : Fin 2048) (n : Fin 8192) : EReal :=
  (∑ d : Fin 4096, z (ix3 p s d) * W (ix2 d n)) + b (ix1 n)

/-- The content times the logistic of the gate. -/
def gated (z : (⟨3, ![4, 2048, 4096]⟩ : Shape).Idx → EReal)
    (W1 : (⟨2, ![4096, 8192]⟩ : Shape).Idx → EReal) (b1 : (⟨1, ![8192]⟩ : Shape).Idx → EReal)
    (W2 : (⟨2, ![4096, 8192]⟩ : Shape).Idx → EReal) (b2 : (⟨1, ![8192]⟩ : Shape).Idx → EReal)
    (p : Fin 4) (s : Fin 2048) (n : Fin 8192) : EReal :=
  affine z W2 b2 p s n * Ideal.logistic (affine z W1 b1 p s n)

/-- The third affine layer, from the 8192 gated features to 4096. -/
def projected (z : (⟨3, ![4, 2048, 4096]⟩ : Shape).Idx → EReal)
    (W1 : (⟨2, ![4096, 8192]⟩ : Shape).Idx → EReal) (b1 : (⟨1, ![8192]⟩ : Shape).Idx → EReal)
    (W2 : (⟨2, ![4096, 8192]⟩ : Shape).Idx → EReal) (b2 : (⟨1, ![8192]⟩ : Shape).Idx → EReal)
    (W3 : (⟨2, ![8192, 4096]⟩ : Shape).Idx → EReal) (b3 : (⟨1, ![4096]⟩ : Shape).Idx → EReal)
    (p : Fin 4) (s : Fin 2048) (o : Fin 4096) : EReal :=
  (∑ n : Fin 8192, gated z W1 b1 W2 b2 p s n * W3 (ix2 n o)) + b3 (ix1 o)

/-- The mean square of group g (features 128 g … 128 g + 127) of a row of 4096 features. -/
def groupMeanSq (y : Fin 4096 → EReal) (g : Fin 32) : EReal :=
  Ideal.div (∑ l : Fin 128, y ⟨g.val * 128 + l.val, by omega⟩ * y ⟨g.val * 128 + l.val, by omega⟩)
    (Ideal.ofBits .f32 0x43000000#32)

/-- A feature over the root of its group's mean square plus the constant, times its scale. -/
def normalized (y : Fin 4096 → EReal) (gamma : (⟨1, ![4096]⟩ : Shape).Idx → EReal) (o : Fin 4096) : EReal :=
  Ideal.div (y o) (Ideal.sqrt (groupMeanSq y ⟨o.val / 128, by omega⟩ + Ideal.ofBits .f32 0x358637BD#32)) * gamma (ix1 o)

/-- The whole function at (p, s, o). -/
def resultAt (z : (⟨3, ![4, 2048, 4096]⟩ : Shape).Idx → EReal)
    (W1 : (⟨2, ![4096, 8192]⟩ : Shape).Idx → EReal) (b1 : (⟨1, ![8192]⟩ : Shape).Idx → EReal)
    (W2 : (⟨2, ![4096, 8192]⟩ : Shape).Idx → EReal) (b2 : (⟨1, ![8192]⟩ : Shape).Idx → EReal)
    (W3 : (⟨2, ![8192, 4096]⟩ : Shape).Idx → EReal) (b3 : (⟨1, ![4096]⟩ : Shape).Idx → EReal)
    (gamma : (⟨1, ![4096]⟩ : Shape).Idx → EReal) (p : Fin 4) (s : Fin 2048) (o : Fin 4096) : EReal :=
  normalized (fun o' => projected z W1 b1 W2 b2 W3 b3 p s o') gamma o

/-- The whole function as an array of shape [4, 2048, 4096]. -/
def result (z : (⟨3, ![4, 2048, 4096]⟩ : Shape).Idx → EReal)
    (W1 : (⟨2, ![4096, 8192]⟩ : Shape).Idx → EReal) (b1 : (⟨1, ![8192]⟩ : Shape).Idx → EReal)
    (W2 : (⟨2, ![4096, 8192]⟩ : Shape).Idx → EReal) (b2 : (⟨1, ![8192]⟩ : Shape).Idx → EReal)
    (W3 : (⟨2, ![8192, 4096]⟩ : Shape).Idx → EReal) (b3 : (⟨1, ![4096]⟩ : Shape).Idx → EReal)
    (gamma : (⟨1, ![4096]⟩ : Shape).Idx → EReal) : (⟨3, ![4, 2048, 4096]⟩ : Shape).Idx → EReal :=
  fun i => resultAt z W1 b1 W2 b2 W3 b3 gamma (i 0) (i 1) (i 2)

end Cert.GatedNorm

end
-- ==== Proof.KI.Bridge.lean ====
/-
  The kernel's two stages compute the specification.

  The kernel works on the 8192 rows R = 2048 p + s of z as a matrix and on the biases and the scale as
  one-row matrices. Its first stage is the gated value of row R at each of the 8192 features; its second
  sums those against W3, adds the bias, and divides each of the 4096 features by the root of its group's
  mean square plus the small constant, times the scale. With the rows identified with the pairs (p, s)
  and the one-row matrices with the vectors these are, term for term, the specification's affine layers,
  gate, projection and grouped normalization.
-/
import proofs.«158177_j59167469470253_2_alg».proof.Proof.KI.Stage1Value
import proofs.«158177_j59167469470253_2_alg».proof.Proof.KI.Stage2Value
import proofs.«158177_j59167469470253_2_alg».proof.Proof.GatedNormSpec
import Idealize.ShloMosaic.Lib.ValueIdx

noncomputable section

namespace Cert.KernelIdeal.Bridge

open Idealize.ShloMosaic Idealize.ShloMosaic.ValueIdx
open Cert.KernelIdeal.Stage1Value Cert.KernelIdeal.Stage2Value Cert.GatedNorm

/-- The kernel's biased row at row (p, s) is the specification's projected row: the same sums over the same
    entries, the 8192 rows being the pairs (p, s) and the one-row biases the vectors. -/
theorem biased_row_eq (z : (⟨3, ![4, 2048, 4096]⟩ : Shape).Idx → EReal) (W1 W2 : (⟨2, ![4096, 8192]⟩ : Shape).Idx → EReal)
    (b1 b2 : (⟨1, ![8192]⟩ : Shape).Idx → EReal) (W3 : (⟨2, ![8192, 4096]⟩ : Shape).Idx → EReal)
    (b3 : (⟨1, ![4096]⟩ : Shape).Idx → EReal)
    (z2 : (⟨2, ![8192, 4096]⟩ : Shape).Idx → EReal) (b1r b2r : (⟨2, ![1, 8192]⟩ : Shape).Idx → EReal)
    (b3r : (⟨2, ![1, 4096]⟩ : Shape).Idx → EReal)
    (hz : ∀ (p : Fin 4) (s : Fin 2048) (d : Fin 4096), z2 (ix2 (⟨p.val * 2048 + s.val, by omega⟩ : Fin 8192) d) = z (ix3 p s d))
    (hb1 : ∀ n : Fin 8192, b1r (ix2 (0 : Fin 1) n) = b1 (ix1 n)) (hb2 : ∀ n : Fin 8192, b2r (ix2 (0 : Fin 1) n) = b2 (ix1 n))
    (hb3 : ∀ o : Fin 4096, b3r (ix2 (0 : Fin 1) o) = b3 (ix1 o))
    (p : Fin 4) (s : Fin 2048) (O : Fin 4096) :
    biasedRow (fun I => gatedEntry z2 W1 b1r W2 b2r (I 0) (I 1)) W3 b3r (⟨p.val * 2048 + s.val, by omega⟩ : Fin 8192) O
      = projected z W1 b1 W2 b2 W3 b3 p s O := by
  unfold biasedRow projEntry projected gated affine
  show (∑ n : Fin 8192, gatedEntry z2 W1 b1r W2 b2r (⟨p.val * 2048 + s.val, by omega⟩ : Fin 8192) n * W3 (ix2 n O)) + b3r (ix2 (0 : Fin 1) O) = _
  unfold gatedEntry
  simp only [hz, hb1, hb2, hb3]

/-- The kernel's two-stage function is the specification, entry by entry. -/
theorem two_stage_is_result (z : (⟨3, ![4, 2048, 4096]⟩ : Shape).Idx → EReal) (W1 W2 : (⟨2, ![4096, 8192]⟩ : Shape).Idx → EReal) (b1 b2 : (⟨1, ![8192]⟩ : Shape).Idx → EReal) (W3 : (⟨2, ![8192, 4096]⟩ : Shape).Idx → EReal) (b3 gm : (⟨1, ![4096]⟩ : Shape).Idx → EReal)
    (z2 : (⟨2, ![8192, 4096]⟩ : Shape).Idx → EReal) (b1r b2r : (⟨2, ![1, 8192]⟩ : Shape).Idx → EReal) (b3r gmr : (⟨2, ![1, 4096]⟩ : Shape).Idx → EReal)
    (hz : ∀ (p : Fin 4) (s : Fin 2048) (d : Fin 4096), z2 (ix2 (⟨p.val * 2048 + s.val, by omega⟩ : Fin 8192) d) = z (ix3 p s d))
    (hb1 : ∀ n : Fin 8192, b1r (ix2 (0 : Fin 1) n) = b1 (ix1 n)) (hb2 : ∀ n : Fin 8192, b2r (ix2 (0 : Fin 1) n) = b2 (ix1 n))
    (hb3 : ∀ o : Fin 4096, b3r (ix2 (0 : Fin 1) o) = b3 (ix1 o)) (hgm : ∀ o : Fin 4096, gmr (ix2 (0 : Fin 1) o) = gm (ix1 o))
    (p : Fin 4) (s : Fin 2048) (o : Fin 4096) :
    Cert.KernelIdeal.Stage2Value.outEntry (fun I => Cert.KernelIdeal.Stage1Value.gatedEntry z2 W1 b1r W2 b2r (I 0) (I 1)) W3 b3r gmr (⟨p.val * 2048 + s.val, by omega⟩ : Fin 8192) o = Cert.GatedNorm.resultAt z W1 b1 W2 b2 W3 b3 gm p s o := by
  unfold outEntry resultAt normalized groupMeanSq
  simp only [biased_row_eq z W1 W2 b1 b2 W3 b3 z2 b1r b2r b3r hz hb1 hb2 hb3 p s, hgm]

end Cert.KernelIdeal.Bridge

end
-- ==== Proof.KI.Result.lean ====
/-
  The idealized kernel's result. The last boundary's contents at the result buffer are, entry (p, s, o): the last
  reshape of the second region's output at row 2048 p + s; that output is the normalised third layer of the first
  region's output, whose entries are the gated values of the rows of z; and that two-stage function of the
  arrays as launched is the specification.
-/
import proofs.«158177_j59167469470253_2_alg».proof.Proof.KI.Run
import proofs.«158177_j59167469470253_2_alg».proof.Proof.KI.Stage1Value
import proofs.«158177_j59167469470253_2_alg».proof.Proof.KI.Stage2Value
import proofs.«158177_j59167469470253_2_alg».proof.Proof.KI.Boundary
import proofs.«158177_j59167469470253_2_alg».proof.Proof.KI.Bridge
import proofs.«158177_j59167469470253_2_alg».proof.Proof.GatedNormSpec

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification of the argument arrays as launched. -/
def expected (c : Dev nD) : Buf (Elt Ideal) ((c.tc : Thread nD τ).loc main_v11) :=
  Cert.GatedNorm.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The result buffer ends at the specification. -/
theorem result_value (c : Dev nD) : Whole.W4 (F := Ideal) m ρ c (Proc.devRef .tc main_v11) = expected m c := by
  funext i
  obtain ⟨p, s, o, rfl⟩ : ∃ (p : Fin 4) (s : Fin 2048) (o : Fin 4096), i = ix3 p s o := ⟨i 0, i 1, i 2, eq_ix3 i⟩
  have h10 : Whole.W3 (F := Ideal) m ρ c (Proc.devRef .tc main_v10) = Stage2Value.outArray (Whole.V2 (F := Ideal) m ρ) c :=
    (Whole.W3_arr m ρ c 4).trans (Stage2Value.out_array (Whole.V2 (F := Ideal) m ρ) c)
  have h9 : Whole.V2 (F := Ideal) m ρ c main_v9
      = fun I : S8192x8192.Idx => Stage1Value.gatedEntry (Whole.V1 (F := Ideal) m ρ c main_v1) (Whole.V1 (F := Ideal) m ρ c main_v2)
          (Whole.V1 (F := Ideal) m ρ c main_v5) (Whole.V1 (F := Ideal) m ρ c main_v3) (Whole.V1 (F := Ideal) m ρ c main_v6) (I 0) (I 1) :=
    (Whole.W2_arr m ρ c 5).trans (Stage1Value.gated_array (Whole.V1 (F := Ideal) m ρ) c)
  rw [Boundary.result_entry m ρ c p s o, h10]
  unfold Stage2Value.outArray
  rw [h9, Boundary.kept_w3, Boundary.kept_b3, Boundary.kept_scale, Boundary.w1_entry, Boundary.w2_entry, Boundary.w3_entry]
  exact Bridge.two_stage_is_result _ _ _ _ _ _ _ _ _ _ _ _ _ (Boundary.rows_entry m ρ c) (Boundary.b1_entry m ρ c)
    (Boundary.b2_entry m ρ c) (Boundary.b3_entry m ρ c) (Boundary.scale_entry m ρ c) p s o

/-- From any memory with zero counters every weakly fair execution of the idealized kernel terminates, nothing faulting,
    with the result at the specification of the arguments and the arguments as launched. -/
theorem run : θ_run defs (onTc (τ := τ) (main (F := Ideal))) ⟨m, fun _ => 0, ρ⟩ (fun r => ∀ c : Dev nD,
      r.2.mem ((c.tc : Thread nD τ).loc main_v11) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (Whole.mem_uc main_v11 (by decide))).trans (result_value m ρ c),
    (h c _ (Whole.mem_uc main_arg0 (by decide))).trans (Whole.W4_untouched m ρ c main_arg0 (by decide) (by decide) (by decide) (by decide)),
    (h c _ (Whole.mem_uc main_arg1 (by decide))).trans (Whole.W4_untouched m ρ c main_arg1 (by decide) (by decide) (by decide) (by decide)),
    (h c _ (Whole.mem_uc main_arg2 (by decide))).trans (Whole.W4_untouched m ρ c main_arg2 (by decide) (by decide) (by decide) (by decide)),
    (h c _ (Whole.mem_uc main_arg3 (by decide))).trans (Whole.W4_untouched m ρ c main_arg3 (by decide) (by decide) (by decide) (by decide)),
    (h c _ (Whole.mem_uc main_arg4 (by decide))).trans (Whole.W4_untouched m ρ c main_arg4 (by decide) (by decide) (by decide) (by decide)),
    (h c _ (Whole.mem_uc main_arg5 (by decide))).trans (Whole.W4_untouched m ρ c main_arg5 (by decide) (by decide) (by decide) (by decide)),
    (h c _ (Whole.mem_uc main_arg6 (by decide))).trans (Whole.W4_untouched m ρ c main_arg6 (by decide) (by decide) (by decide) (by decide)),
    (h c _ (Whole.mem_uc main_arg7 (by decide))).trans (Whole.W4_untouched m ρ c main_arg7 (by decide) (by decide) (by decide) (by decide))⟩)
    (Whole.run_all (F := Ideal) m ρ)

end Cert.KernelIdeal.Result

end
-- ==== Proof.ReferenceIsSpec.lean ====
/-
  The reference program computes the specification.

  The reference is read one operation at a time. A row is a pair (p, s). Its two matrix products
  with a bias added are the two affine layers; the reference spells the logistic of the gate as
  1 / (1 + exp (-g)) with the single-precision word of the number one, which is the logistic
  function itself. The third product with its bias is the projected row of 4096 features. The
  reference then views the row as 32 groups of 128: feature o sits in group o / 128 at place
  o % 128, and place l of group g is feature 128 g + l. The sum of squares over a group starts
  from the zero word, is divided by 128, gets the small constant added and its root taken; every
  feature is divided by its own group's root and scaled by gamma.
-/
import proofs.«158177_j59167469470253_2_alg».proof.Proof.Gen.ReferenceIdeal.Read
import proofs.«158177_j59167469470253_2_alg».proof.Proof.GatedNormSpec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Read Cert.GatedNorm Idealize.ShloMosaic Idealize.ShloMosaic.ValueIdx

section Stages

variable (x0 : (⟨S4x2048x4096, .f32⟩ : BufTy).Contents (Elt Ideal))
  (x1 : (⟨S4096x8192, .f32⟩ : BufTy).Contents (Elt Ideal)) (x2 : (⟨S8192, .f32⟩ : BufTy).Contents (Elt Ideal))
  (x3 : (⟨S4096x8192, .f32⟩ : BufTy).Contents (Elt Ideal)) (x4 : (⟨S8192, .f32⟩ : BufTy).Contents (Elt Ideal))
  (x5 : (⟨S8192x4096, .f32⟩ : BufTy).Contents (Elt Ideal))
  (x6 x7 : (⟨S4096, .f32⟩ : BufTy).Contents (Elt Ideal))

/-- The first product plus its bias, at row (p, s) and feature n, is the affine layer of W1, b1. -/
theorem gate_at (p : Fin 4) (s : Fin 2048) (n : Fin 8192) :
    val_main_v3 (F := Ideal) x0 x1 x2 (ix3 p s n) = affine x0 x1 x2 p s n := by
  rw [val_main_v3_apply, val_main_v0_apply, val_main_v2_apply, val_main_v1_apply, Ideal.addf_def]
  have el : ∀ k : Fin 4096, lidx_main_v0 (ix3 p s n) k = ix3 p s k := fun k => funext fun a => Fin.ext (by
    match a with | ⟨0, _⟩ => rfl | ⟨1, _⟩ => rfl | ⟨2, _⟩ => rfl)
  have er : ∀ k : Fin 4096, ridx_main_v0 (ix3 p s n) k = ix2 k n := fun k => funext fun a => Fin.ext (by
    match a with | ⟨0, _⟩ => rfl | ⟨1, _⟩ => rfl)
  have eb : idx_main_v1 (idx_main_v2 (ix3 p s n)) = ix1 n := funext fun a => Fin.ext (by
    match a with | ⟨0, _⟩ => rfl)
  rw [eb, Finset.sum_congr rfl fun k _ => by rw [el k, er k]]
  rfl

/-- The second product plus its bias is the affine layer of W2, b2. -/
theorem content_at (p : Fin 4) (s : Fin 2048) (n : Fin 8192) :
    val_main_v7 (F := Ideal) x0 x3 x4 (ix3 p s n) = affine x0 x3 x4 p s n := by
  rw [val_main_v7_apply, val_main_v4_apply, val_main_v6_apply, val_main_v5_apply, Ideal.addf_def]
  have el : ∀ k : Fin 4096, lidx_main_v4 (ix3 p s n) k = ix3 p s k := fun k => funext fun a => Fin.ext (by
    match a with | ⟨0, _⟩ => rfl | ⟨1, _⟩ => rfl | ⟨2, _⟩ => rfl)
  have er : ∀ k : Fin 4096, ridx_main_v4 (ix3 p s n) k = ix2 k n := fun k => funext fun a => Fin.ext (by
    match a with | ⟨0, _⟩ => rfl | ⟨1, _⟩ => rfl)
  have eb : idx_main_v5 (idx_main_v6 (ix3 p s n)) = ix1 n := funext fun a => Fin.ext (by
    match a with | ⟨0, _⟩ => rfl)
  rw [eb, Finset.sum_congr rfl fun k _ => by rw [el k, er k]]
  rfl

/-- The content times 1 / (1 + exp (-gate)), the ones being the word of the number one, is the
    content times the logistic of the gate. -/
theorem gated_at (p : Fin 4) (s : Fin 2048) (n : Fin 8192) :
    val_main_v14 (F := Ideal) x0 x1 x2 x3 x4 (ix3 p s n) = gated x0 x1 x2 x3 x4 p s n := by
  rw [val_main_v14_apply, val_main_v13_apply, val_main_v12_apply, val_main_cst_0_apply, val_main_v11_apply,
    val_main_v10_apply, val_main_cst_apply, val_main_v9_apply, val_main_v8_apply, content_at, gate_at]
  simp only [Ideal.mulf_def, Ideal.hostDivf_def, Ideal.addf_def, Ideal.hostUnary_exp_def, Ideal.hostNegf_def,
    Ideal.negf_def, Ideal.ofBits_def, Ideal.ofBits_one_f32]
  rfl

/-- The third product plus its bias is the projected row. -/
theorem projected_at (p : Fin 4) (s : Fin 2048) (o : Fin 4096) :
    val_main_v18 (F := Ideal) x0 x1 x2 x3 x4 x5 x6 (ix3 p s o) = projected x0 x1 x2 x3 x4 x5 x6 p s o := by
  rw [val_main_v18_apply, val_main_v15_apply, val_main_v17_apply, val_main_v16_apply, Ideal.addf_def]
  have el : ∀ k : Fin 8192, lidx_main_v15 (ix3 p s o) k = ix3 p s k := fun k => funext fun a => Fin.ext (by
    match a with | ⟨0, _⟩ => rfl | ⟨1, _⟩ => rfl | ⟨2, _⟩ => rfl)
  have er : ∀ k : Fin 8192, ridx_main_v15 (ix3 p s o) k = ix2 k o := fun k => funext fun a => Fin.ext (by
    match a with | ⟨0, _⟩ => rfl | ⟨1, _⟩ => rfl)
  have eb : idx_main_v16 (idx_main_v17 (ix3 p s o)) = ix1 o := funext fun a => Fin.ext (by
    match a with | ⟨0, _⟩ => rfl)
  rw [eb, Finset.sum_congr rfl fun k _ => by rw [el k, er k, gated_at]]
  rfl

/-- Place l of group g of a row is feature 128 g + l of that row. -/
theorem group_place (p : Fin 4) (s : Fin 2048) (g : Fin 32) (l : Fin 128) :
    idx_main_v19 (ix4 p s g l) = ix3 p s (⟨g.val * 128 + l.val, by omega⟩ : Fin 4096) := by
  have hp := p.isLt; have hs := s.isLt; have hg := g.isLt; have hl := l.isLt
  refine funext fun a => Fin.ext ?_
  match a with
  | ⟨0, _⟩ => show (((p.val * 2048 + s.val) * 32 + g.val) * 128 + l.val) / 8388608 = p.val; omega
  | ⟨1, _⟩ => show (((p.val * 2048 + s.val) * 32 + g.val) * 128 + l.val) / 4096 % 2048 = s.val; omega
  | ⟨2, _⟩ => show (((p.val * 2048 + s.val) * 32 + g.val) * 128 + l.val) % 4096 = g.val * 128 + l.val; omega

/-- Feature o of a row sits in group o / 128 at place o % 128. -/
theorem feature_group (p : Fin 4) (s : Fin 2048) (o : Fin 4096) :
    idx_main_v30 (ix3 p s o) = ix4 p s (⟨o.val / 128, by omega⟩ : Fin 32) (⟨o.val % 128, by omega⟩ : Fin 128) := by
  have hp := p.isLt; have hs := s.isLt; have ho := o.isLt
  refine funext fun a => Fin.ext ?_
  match a with
  | ⟨0, _⟩ => show ((p.val * 2048 + s.val) * 4096 + o.val) / 8388608 = p.val; omega
  | ⟨1, _⟩ => show ((p.val * 2048 + s.val) * 4096 + o.val) / 4096 % 2048 = s.val; omega
  | ⟨2, _⟩ => show ((p.val * 2048 + s.val) * 4096 + o.val) / 128 % 32 = o.val / 128; omega
  | ⟨3, _⟩ => show ((p.val * 2048 + s.val) * 4096 + o.val) % 128 = o.val % 128; omega

/-- The row viewed in groups, at place l of group g, is the projected row at feature 128 g + l. -/
theorem grouped_at (p : Fin 4) (s : Fin 2048) (g : Fin 32) (l : Fin 128) :
    val_main_v19 (F := Ideal) x0 x1 x2 x3 x4 x5 x6 (ix4 p s g l)
      = projected x0 x1 x2 x3 x4 x5 x6 p s (⟨g.val * 128 + l.val, by omega⟩ : Fin 4096) := by
  rw [val_main_v19_apply, group_place, projected_at]

/-- The sum of squares over group g from the zero word, over 128, plus the small constant, is the
    group's mean square plus that constant. -/
theorem meansq_at (p : Fin 4) (s : Fin 2048) (g : Fin 32) (u : Fin 1) :
    val_main_v26 (F := Ideal) x0 x1 x2 x3 x4 x5 x6 (ix4 p s g u)
      = groupMeanSq (fun o' => projected x0 x1 x2 x3 x4 x5 x6 p s o') g + Ideal.ofBits .f32 0x358637BD#32 := by
  rw [val_main_v26_apply, val_main_v24_apply, val_main_v22_apply, val_main_v21_apply, val_main_cst_1_apply,
    val_main_v23_apply, val_main_cst_2_apply, val_main_v25_apply, val_main_cst_3_apply]
  have ek : ∀ k : Fin 128, idx_main_v21 (idx_main_v22 (ix4 p s g u)) k = ix4 p s g k := fun k => funext fun a =>
    Fin.ext (by match a with | ⟨0, _⟩ => rfl | ⟨1, _⟩ => rfl | ⟨2, _⟩ => rfl | ⟨3, _⟩ => rfl)
  rw [Finset.sum_congr rfl fun k _ => by rw [val_main_v20_apply, ek k, grouped_at, Ideal.mulf_def]]
  simp only [Ideal.addf_def, Ideal.hostDivf_def, Ideal.ofBits_def, Ideal.ofBits_zero_f32, zero_add]
  rfl

/-- A feature over the root of its group's mean square plus the constant, times gamma. -/
theorem normalized_at (p : Fin 4) (s : Fin 2048) (o : Fin 4096) :
    val_main_v33 (F := Ideal) x0 x1 x2 x3 x4 x5 x6 x7 (ix3 p s o)
      = resultAt x0 x1 x2 x3 x4 x5 x6 x7 p s o := by
  have eg : idx_main_v31 (idx_main_v32 (ix3 p s o)) = ix1 o := funext fun a =>
    Fin.ext (by match a with | ⟨0, _⟩ => rfl)
  have er : idx_main_v28 (ix4 p s (⟨o.val / 128, by omega⟩ : Fin 32) (⟨o.val % 128, by omega⟩ : Fin 128))
      = ix4 p s (⟨o.val / 128, by omega⟩ : Fin 32) (⟨0, Nat.one_pos⟩ : Fin 1) := funext fun a =>
    Fin.ext (by match a with | ⟨0, _⟩ => rfl | ⟨1, _⟩ => rfl | ⟨2, _⟩ => rfl | ⟨3, _⟩ => rfl)
  have eo : (⟨(⟨o.val / 128, by omega⟩ : Fin 32).val * 128 + (⟨o.val % 128, by omega⟩ : Fin 128).val, by
      show o.val / 128 * 128 + o.val % 128 < 4096; omega⟩ : Fin 4096) = o := Fin.ext (by
    show o.val / 128 * 128 + o.val % 128 = o.val; omega)
  rw [val_main_v33_apply, val_main_v30_apply, val_main_v29_apply, val_main_v28_apply, val_main_v27_apply,
    val_main_v32_apply, val_main_v31_apply, eg, feature_group, er, meansq_at, grouped_at, eo]
  simp only [Ideal.mulf_def, Ideal.hostDivf_def, Ideal.hostUnary_sqrt_def]
  rfl

end Stages

/-- The reference's result is the specification, as arrays. -/
theorem reference_is_result (x0 : (⟨S4x2048x4096, .f32⟩ : BufTy).Contents (Elt Ideal)) (x1 : (⟨S4096x8192, .f32⟩ : BufTy).Contents (Elt Ideal)) (x2 : (⟨S8192, .f32⟩ : BufTy).Contents (Elt Ideal)) (x3 : (⟨S4096x8192, .f32⟩ : BufTy).Contents (Elt Ideal)) (x4 : (⟨S8192, .f32⟩ : BufTy).Contents (Elt Ideal)) (x5 : (⟨S8192x4096, .f32⟩ : BufTy).Contents (Elt Ideal)) (x6 x7 : (⟨S4096, .f32⟩ : BufTy).Contents (Elt Ideal)) :
    Cert.ReferenceIdeal.Read.val_main_v33 (F := Ideal) x0 x1 x2 x3 x4 x5 x6 x7 = Cert.GatedNorm.result x0 x1 x2 x3 x4 x5 x6 x7 := by
  funext i
  obtain ⟨p, s, o, rfl⟩ : ∃ (p : Fin 4) (s : Fin 2048) (o : Fin 4096), i = ix3 p s o := ⟨i 0, i 1, i 2, eq_ix3 i⟩
  exact normalized_at x0 x1 x2 x3 x4 x5 x6 x7 p s o

end Cert.ReferenceIdeal.RefValue

end
-- ==== Proof.lean ====
/-
  The certificate of a gated two-layer perceptron followed by a group-wise root-mean-square normalisation, computed
  by two kernel regions against a plain reference.

  The mathematics. A row (p, s) of z has 4096 features. Two affine layers of width 8192 give a gate and a content;
  the gated value is the content times the logistic of the gate. A third affine layer maps the 8192 gated features to
  4096, which fall into 32 groups of 128; each feature is divided by the square root of its group's mean square plus a
  small constant and scaled. The first region computes the gated values block by block, 1024 rows by 512 features at
  a time. The second region forms the third layer in eight steps over the 8192 gated features, 1024 at a time, in an
  accumulator kept between grid points, and at the eighth step adds the bias, normalises and scales. On the extended
  reals a change of float format is the identity, and a sum over 8 · 1024 positions is the sum over the eight tiles of
  the sums over each tile — addition there is commutative and associative, which is all that is used: no finiteness of
  the inputs enters. The reference writes the logistic as 1 / (1 + e^(-x)), which is its definition.

  The claims. Each kernel program's frame is its run as host operations, region, region, host operation, with the
  buffers' contents folded through the four segments: no host operation writes an argument and no region's window
  stages one. The reference's frame is its run with the result dropped. Nothing was rewritten by the idealization, so
  there is nothing to preserve. For the equality of results, the same run of the idealized kernel also ends with its
  result buffer at the fold's last contents, and those are the specification of the arguments; the reference's run
  ends at its composed term, which is the same specification.
-/
import proofs.«158177_j59167469470253_2_alg».proof.Defs
import proofs.«158177_j59167469470253_2_alg».proof.Proof.Gen.Kernel
import proofs.«158177_j59167469470253_2_alg».proof.Proof.Gen.KernelIdeal
import proofs.«158177_j59167469470253_2_alg».proof.Proof.Gen.ReferenceIdeal
import proofs.«158177_j59167469470253_2_alg».proof.Proof.Gen.ReferenceIdeal.Run
import proofs.«158177_j59167469470253_2_alg».proof.Proof.Gen.ReferenceIdeal.Read
import proofs.«158177_j59167469470253_2_alg».proof.Proof.Gen.Pre_finite_inputs
import proofs.«158177_j59167469470253_2_alg».proof.Proof.K.Run
import proofs.«158177_j59167469470253_2_alg».proof.Proof.KI.Run
import proofs.«158177_j59167469470253_2_alg».proof.Proof.KI.Result
import proofs.«158177_j59167469470253_2_alg».proof.Proof.ReferenceIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Whole.run_frame (F := Bits) m ρ

/-- So does the idealized kernel. -/
theorem frame_kernel_ideal : Cert.frame_KernelIdeal := fun m ρ _ => Cert.KernelIdeal.Whole.run_frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at the specification of those arguments. -/
theorem algebraic : Cert.algebraic_KernelIdeal_ReferenceIdeal := by
  intro m ρ m' ρ' _ hagree
  refine ⟨fun c => Cert.KernelIdeal.Result.expected m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.reference_is_result,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
